-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  reducesTo_S_S_d : S_.ReducesTo [] S_

variable [Facts]

def fn_part2 {F : FTy → Type} [FloatOps F] (main_arg9 : FVec F S_ .f32) (main_v33 : IVec S_ 1) : IVec S_ 1 :=
  let main_v34 : FVec F S_ .f32 := Host.absf main_arg9
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  main_v37

def fn_part1 {F : FTy → Type} [FloatOps F] (main_arg6 : FVec F S128 .f32) (main_arg7 : FVec F S128x1 .f32) (main_arg8 : FVec F S1 .f32) (main_arg9 : FVec F S_ .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x1 .f32) (main_arg8 : FVec F S1 .f32) (main_arg9 : FVec F S_ .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S1x1 : Shape := ⟨2, ![1, 1]⟩
abbrev S800000x128 : Shape := ⟨2, ![800000, 128]⟩
abbrev S1x128 : Shape := ⟨2, ![1, 128]⟩

abbrev nBuf : Space → Nat
  | .hbm => 98
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S_, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x1, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S1, .i32⟩
  | .hbm, ⟨46, _⟩ => ⟨S_, .i32⟩
  | .hbm, ⟨47, _⟩ => ⟨S800000x1, .i32⟩
  | .hbm, ⟨48, _⟩ => ⟨S800000x1, .i1⟩
  | .hbm, ⟨49, _⟩ => ⟨S1x1, .i32⟩
  | .hbm, ⟨50, _⟩ => ⟨S800000x1, .i32⟩
  | .hbm, ⟨51, _⟩ => ⟨S800000x1, .i1⟩
  | .hbm, ⟨52, _⟩ => ⟨S800000x1, .i1⟩
  | .hbm, ⟨53, _⟩ => ⟨S_, .i1⟩
  | .hbm, ⟨54, _⟩ => ⟨S800000, .i1⟩
  | .hbm, ⟨55, _⟩ => ⟨S800000x128, .f32⟩
  | .hbm, ⟨56, _⟩ => ⟨S800000x128, .i1⟩
  | .hbm, ⟨57, _⟩ => ⟨S_, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S1, .i32⟩
  | .hbm, ⟨74, _⟩ => ⟨S_, .i32⟩
  | .hbm, ⟨75, _⟩ => ⟨S800000x1, .i32⟩
  | .hbm, ⟨76, _⟩ => ⟨S800000x1, .i1⟩
  | .hbm, ⟨77, _⟩ => ⟨S1x1, .i32⟩
  | .hbm, ⟨78, _⟩ => ⟨S800000x1, .i32⟩
  | .hbm, ⟨79, _⟩ => ⟨S800000x1, .i1⟩
  | .hbm, ⟨80, _⟩ => ⟨S800000x1, .i1⟩
  | .hbm, ⟨81, _⟩ => ⟨S_, .i1⟩
  | .hbm, ⟨82, _⟩ => ⟨S800000, .i1⟩
  | .hbm, ⟨83, _⟩ => ⟨S800000x128, .f32⟩
  | .hbm, ⟨84, _⟩ => ⟨S800000x128, .i1⟩
  | .hbm, ⟨85, _⟩ => ⟨S_, .f32⟩
  | .hbm, ⟨86, _⟩ => ⟨S800000x128, .f32⟩
  | .hbm, ⟨87, _⟩ => ⟨S800000x128, .f32⟩
  | .hbm, ⟨88, _⟩ => ⟨S_, .f32⟩
  | .hbm, ⟨89, _⟩ => ⟨S50000x128, .f32⟩
  | .hbm, ⟨90, _⟩ => ⟨S800000x1, .i32⟩
  | .hbm, ⟨91, _⟩ => ⟨S50000x128, .f32⟩
  | .hbm, ⟨92, _⟩ => ⟨S50000x1, .f32⟩
  | .hbm, ⟨93, _⟩ => ⟨S1x1, .f32⟩
  | .hbm, ⟨94, _⟩ => ⟨S50000x1, .f32⟩
  | .hbm, ⟨95, _⟩ => ⟨S50000x1, .f32⟩
  | .hbm, ⟨96, _⟩ => ⟨S50000x1, .f32⟩
  | .hbm, ⟨97, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S128, .f32⟩
  | .local _ .vmem, ⟨22, _⟩ => ⟨S128x1, .f32⟩
  | .local _ .vmem, ⟨23, _⟩ => ⟨S5000x1, .f32⟩
  | .local _ .vmem, ⟨24, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v10 : Ref sig .tc := ⟨.hbm, 30, rfl⟩
abbrev main_cst_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_call2_cst : Ref sig .tc := ⟨.hbm, 57, rfl⟩
abbrev main_call2_v15 : Ref sig .tc := ⟨.hbm, 58, rfl⟩
abbrev main_v16 : Ref sig .tc := ⟨.hbm, 59, rfl⟩
abbrev main_cst_6 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_c_1 : Ref sig .tc := ⟨.hbm, 73, rfl⟩
abbrev main_call3_c_2 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_c_3 : Ref sig .tc := ⟨.hbm, 81, rfl⟩
abbrev main_call3_v12 : Ref sig .tc := ⟨.hbm, 82, rfl⟩
abbrev main_call3_v13 : Ref sig .tc := ⟨.hbm, 83, rfl⟩
abbrev main_call3_v14 : Ref sig .tc := ⟨.hbm, 84, rfl⟩
abbrev main_call3_cst : Ref sig .tc := ⟨.hbm, 85, rfl⟩
abbrev main_call3_v15 : Ref sig .tc := ⟨.hbm, 86, rfl⟩
abbrev main_v21 : Ref sig .tc := ⟨.hbm, 87, rfl⟩
abbrev main_cst_7 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S50000x1.size a
  hwx2_5 : ∀ i : grid2.Coords, EltTy.bits .f32 = 32 ∨ (Rect.block (s := S50000x1) S5000x1.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S5000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x1 : Shape := ⟨2, ![1, 1]⟩
abbrev S800000x128 : Shape := ⟨2, ![800000, 128]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S_, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S1, .i32⟩
  | .hbm, ⟨46, _⟩ => ⟨S_, .i32⟩
  | .hbm, ⟨47, _⟩ => ⟨S800000x1, .i32⟩
  | .hbm, ⟨48, _⟩ => ⟨S800000x1, .i1⟩
  | .hbm, ⟨49, _⟩ => ⟨S1x1, .i32⟩
  | .hbm, ⟨50, _⟩ => ⟨S800000x1, .i32⟩
  | .hbm, ⟨51, _⟩ => ⟨S800000x1, .i1⟩
  | .hbm, ⟨52, _⟩ => ⟨S800000x1, .i1⟩
  | .hbm, ⟨53, _⟩ => ⟨S_, .i1⟩
  | .hbm, ⟨54, _⟩ => ⟨S800000, .i1⟩
  | .hbm, ⟨55, _⟩ => ⟨S800000x128, .f32⟩
  | .hbm, ⟨56, _⟩ => ⟨S800000x128, .i1⟩
  | .hbm, ⟨57, _⟩ => ⟨S_, .f32⟩
  | .hbm, ⟨58, _⟩ => ⟨S800000x128, .f32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S1, .i32⟩
  | .hbm, ⟨86, _⟩ => ⟨S_, .i32⟩
  | .hbm, ⟨87, _⟩ => ⟨S800000x1, .i32⟩
  | .hbm, ⟨88, _⟩ => ⟨S800000x1, .i1⟩
  | .hbm, ⟨89, _⟩ => ⟨S1x1, .i32⟩
  | .hbm, ⟨90, _⟩ => ⟨S800000x1, .i32⟩
  | .hbm, ⟨91, _⟩ => ⟨S800000x1, .i1⟩
  | .hbm, ⟨92, _⟩ => ⟨S800000x1, .i1⟩
  | .hbm, ⟨93, _⟩ => ⟨S_, .i1⟩
  | .hbm, ⟨94, _⟩ => ⟨S800000, .i1⟩
  | .hbm, ⟨95, _⟩ => ⟨S800000x128, .f32⟩
  | .hbm, ⟨96, _⟩ => ⟨S800000x128, .i1⟩
  | .hbm, ⟨97, _⟩ => ⟨S_, .f32⟩
  | .hbm, ⟨98, _⟩ => ⟨S800000x128, .f32⟩
  | .hbm, ⟨99, _⟩ => ⟨S800000x128, .f32⟩
  | .hbm, ⟨100, _⟩ => ⟨S_, .f32⟩
  | .hbm, ⟨101, _⟩ => ⟨S50000x128, .f32⟩
  | .hbm, ⟨102, _⟩ => ⟨S800000x1, .i32⟩
  | .hbm, ⟨103, _⟩ => ⟨S50000x128, .f32⟩
  | .hbm, ⟨104, _⟩ => ⟨S50000x1, .f32⟩
  | .hbm, ⟨105, _⟩ => ⟨S50000x128, .f32⟩
  | .hbm, ⟨106, _⟩ => ⟨S50000x128, .f32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | .hbm, ⟨111, _⟩ => ⟨S_, .f32⟩
  | .hbm, ⟨112, _⟩ => ⟨S50000x128, .f32⟩
  | .hbm, ⟨113, _⟩ => ⟨S50000x128, .f32⟩
  | .hbm, ⟨114, _⟩ => ⟨S50000x1, .f32⟩
  | .hbm, ⟨115, _⟩ => ⟨S1x1, .f32⟩
  | .hbm, ⟨116, _⟩ => ⟨S50000x1, .f32⟩
  | .hbm, ⟨117, _⟩ => ⟨S50000x1, .f32⟩
  | .hbm, ⟨118, _⟩ => ⟨S50000x1, .f32⟩
  | .hbm, ⟨119, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v10 : Ref sig .tc := ⟨.hbm, 30, rfl⟩
abbrev main_cst_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_call2_cst : Ref sig .tc := ⟨.hbm, 57, rfl⟩
abbrev main_call2_v15 : Ref sig .tc := ⟨.hbm, 58, rfl⟩
abbrev main_v16 : Ref sig .tc := ⟨.hbm, 59, rfl⟩
abbrev main_cst_6 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_call3_cst : Ref sig .tc := ⟨.hbm, 71, rfl⟩
abbrev main_call3_v0 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_call4_c : Ref sig .tc := ⟨.hbm, 77, rfl⟩
abbrev main_call4_v0 : Ref sig .tc := ⟨.hbm, 78, rfl⟩
abbrev main_call4_v1 : Ref sig .tc := ⟨.hbm, 79, rfl⟩
abbrev main_call4_c_0 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_v5 : Ref sig .tc := ⟨.hbm, 84, rfl⟩
abbrev main_call4_c_1 : Ref sig .tc := ⟨.hbm, 85, rfl⟩
abbrev main_call4_c_2 : Ref sig .tc := ⟨.hbm, 86, rfl⟩
abbrev main_call4_v6 : Ref sig .tc := ⟨.hbm, 87, rfl⟩
abbrev main_call4_v7 : Ref sig .tc := ⟨.hbm, 88, rfl⟩
abbrev main_call4_v8 : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_call4_c_3 : Ref sig .tc := ⟨.hbm, 93, rfl⟩
abbrev main_call4_v12 : Ref sig .tc := ⟨.hbm, 94, rfl⟩
abbrev main_call4_v13 : Ref sig .tc := ⟨.hbm, 95, rfl⟩
abbrev main_call4_v14 : Ref sig .tc := ⟨.hbm, 96, rfl⟩
abbrev main_call4_cst : Ref sig .tc := ⟨.hbm, 97, rfl⟩
abbrev main_call4_v15 : Ref sig .tc := ⟨.hbm, 98, rfl⟩
abbrev main_v31 : Ref sig .tc := ⟨.hbm, 99, rfl⟩
abbrev main_cst_7 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_call5_cst : Ref sig .tc := ⟨.hbm, 111, rfl⟩
abbrev main_call5_v0 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KRun.lean ====
/-
  The kernel program's run with its result named.

  Every weakly fair execution of the three-region program terminates without a fault; at the end each argument
  array is as launched, and the result buffer holds the last boundary valuation of the run at that buffer: the
  fold, through the host stretches and the three regions' write-backs, of the launch memory.
-/
import proofs.«131643_j41497974014275_1_alg».proof.Proof.Gen.KernelIdeal.Frame

set_option maxRecDepth 16384

noncomputable section

namespace Cert.KernelIdeal.NamedRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable [Cert.KernelIdeal.Facts]
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments of the program, read at the end against the last boundary valuation: the result buffer
    holds that valuation's contents, and every argument array its launch contents. -/
theorem run_named : θ_run defs (onTc (τ := τ) (main (F := F))) ⟨m, fun _ => 0, ρ⟩ (fun r => ∀ c : Dev nD,
      r.2.mem ((c.tc : Thread nD τ).loc main_v30) = W13 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v30 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c)⟩)

end Cert.KernelIdeal.NamedRun

end
-- ==== Proof.Spec.lean ====
/-
  The common mathematical content of both programs, as whole-array functions on the extended reals.

  A two-layer graph convolution with symmetric degree normalisation followed by a linear read-out:
  with  dout = max(1, #edges leaving a node)^(-1/2),  din = max(1, #edges entering a node)^(-1/2),
    h0 = x · dout                                   (row n scaled by dout n)
    a1 = Σ_{edges e with dst e = n} h0 (src e)        (rows gathered at src, summed into dst)
    h1 = relu ((a1 · din) W1 + b1) · dout
    a2 = Σ_{edges e with dst e = n} h1 (src e)
    h2 = relu ((a2 · din) W2 + b2)
    out = h2 fc_w + fc_b − threshold.
  Each stage is written with the operations (and the dimension records) the reference program uses, so
  that the reference's run is this composition literally; the kernel computes the three dense stages
  (scale, conv1, conv2) block by block, and the gathers, the scatter-adds and the degree vectors with the
  same host operations.
-/
import proofs.«131643_j41497974014275_1_alg».proof.ReferenceIdeal
import Idealize.ShloMosaic.PureOps.Ideal

noncomputable section

namespace Cert.Spec

open Idealize.ShloMosaic Cert.ReferenceIdeal Cert.ReferenceIdeal.Facts₀

variable [Cert.ReferenceIdeal.Facts]

/-- A real-valued (f32 read at the ideal instance) array of shape `S`. -/
abbrev R (S : Shape) : Type := FVec Ideal S .f32
/-- An array of 32-bit words of shape `S`. -/
abbrev W32 (S : Shape) : Type := IVec S 32

/-- A vector over the nodes laid out as a column. -/
def col (v : R S50000) : R S50000x1 :=
  broadcastInDim S50000x1 ![0] bcast_S50000_S50000x1_0 v

/-- A column repeated along the 128 features. -/
def wide (v : R S50000x1) : R S50000x128 :=
  broadcastInDim S50000x128 ![0, 1] bcast_S50000x1_S50000x128_0_1 v

/-- `max(1, count)^(-1/2)` of the number of edges whose endpoint word `idx` names each node. -/
def invSqrtDeg (idx : W32 S800000) : R S50000 :=
  Host.powf (F := Ideal)
    (maximumf (F := Ideal) (broadcastInDim S50000 ![] bcast_S_S50000 (id (constant (F := Ideal) S_ .f32 0x3F800000#32)))
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 idx)
        (broadcastInDim S800000 ![] bcast_S_S800000 (constant (F := Ideal) S_ .f32 0x3F800000#32))))
    (broadcastInDim S50000 ![] bcast_S_S50000 (constant (F := Ideal) S_ .f32 0xBF000000#32))

/-- The edge's source word with a negative word wrapped once (`jnp.take`'s index normalisation), as a column. -/
def wrapped (idx : W32 S800000) : W32 S800000x1 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- Rows of `x` gathered at the (wrapped) words of `idx`; a row whose word is out of range is filled with the
    fill word of `jnp.take`. -/
def take (x : R S50000x128) (idx : W32 S800000) : R S800000x128 :=
  select
    (broadcastInDim S800000x128 ![0] bcast_S800000_S800000x128_0
      (Host.reduce IntOp.andi
        (andi (cmpi .sge (wrapped idx) (broadcastInDim S800000x1 ![] bcast_S_S800000x1 (constantI S_ 32 0#32)))
              (cmpi .sle (wrapped idx) (broadcastInDim S800000x1 ![0, 1] bcast_S1x1_S800000x1_0_1
                (broadcastInDim S1x1 ![1] bcast_S1_S1x1_1 (constantI S1 32 49999#32)))))
        (constantI S_ 1 1#1) reducesTo_S800000x1_S800000_d1 h_S_))
    (Host.gather gather_S50000x128_S800000x1_S800000x128_1_0_n_n_0_1_1128 x (wrapped idx))
    (broadcastInDim S800000x128 ![] bcast_S_S800000x128 (constant (F := Ideal) S_ .f32 0x7FC00000#32))

/-- Rows of `msg` summed into the node each edge's target word names. -/
def agg (msg : R S800000x128) (dst : W32 S800000) : R S50000x128 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst) msg

/-- Row `n` of `x` multiplied by entry `n` of the column `d`. -/
def scale (x : R S50000x128) (d : R S50000x1) : R S50000x128 :=
  mulf (F := Ideal) x (wide d)

/-- `max(·, 0)` entrywise. -/
def relu (x : R S50000x128) : R S50000x128 :=
  maximumf (F := Ideal) x (broadcastInDim S50000x128 ![] bcast_S_S50000x128 (constant (F := Ideal) S_ .f32 0x00000000#32))

/-- `relu ((a · din) W + b)`: the dense part of one layer before the source-side scaling. -/
def dense (a : R S50000x128) (din : R S50000x1) (W : R S128x128) (b : R S128) : R S50000x128 :=
  relu (addf (F := Ideal) (Host.dotGeneral (F := Ideal) dot_S50000x128_S128x128_S50000x128_1_0_0_1_n_n none (mulf (F := Ideal) a (wide din)) W)
    (broadcastInDim S50000x128 ![0, 1] bcast_S1x128_S50000x128_0_1 (broadcastInDim S1x128 ![1] bcast_S128_S1x128_1 b)))

/-- The first layer's dense part, scaled for the next gather. -/
def conv1 (a : R S50000x128) (din dout : R S50000x1) (W : R S128x128) (b : R S128) : R S50000x128 :=
  mulf (F := Ideal) (dense a din W b) (wide dout)

/-- The second layer's dense part followed by the read-out column. -/
def conv2 (a : R S50000x128) (din : R S50000x1) (W : R S128x128) (b : R S128) (fcw : R S128x1) : R S50000x1 :=
  Host.dotGeneral (F := Ideal) dot_S50000x128_S128x1_S50000x1_1_0_0_1_n_n none (dense a din W b) fcw

/-- The read-out bias added and the threshold subtracted. -/
def tail (raw : R S50000x1) (fcb : R S1) (thr : R S_) : R S50000x1 :=
  subf (F := Ideal) (addf (F := Ideal) raw (broadcastInDim S50000x1 ![0, 1] bcast_S1x1_S50000x1_0_1 (broadcastInDim S1x1 ![1] bcast_S1_S1x1_1 fcb)))
    (broadcastInDim S50000x1 ![] bcast_S_S50000x1 thr)

/-- The whole network: what both programs leave in their result buffer. -/
def out (x : R S50000x128) (src dst : W32 S800000) (W1 : R S128x128) (b1 : R S128)
    (W2 : R S128x128) (b2 : R S128) (fcw : R S128x1) (fcb : R S1) (thr : R S_) : R S50000x1 :=
  tail
    (conv2
      (agg (take
        (conv1 (agg (take (scale x (col (invSqrtDeg src))) src) dst) (col (invSqrtDeg dst)) (col (invSqrtDeg src)) W1 b1)
        src) dst)
      (col (invSqrtDeg dst)) W2 b2 fcw)
    fcb thr

end Cert.Spec

end
-- ==== Proof.LibTypedRef.lean ====
/-
  Typed references at literal buffers.

  A module-local function's operations are stated over references that carry the type of the tensor value they
  hold; a value is moved between that type and the buffer's own type (a lookup in the signature's tables) along the
  equation between the two. When the reference is a literal buffer the two types are the same by computation and the
  transport is the identity — by `rfl`, for the one buffer at hand. These two lemmas state it for any signature and
  any literal reference whose carried type is the buffer's own: instantiated at each buffer a typed operation
  touches (`toBuf_lit main_v7`, `ofBuf_lit main_v7`, …) they make a rewrite set that removes every transport from a
  composed term of host operations, after which the term can be compared with a specification. (Left in place, the
  transports make such a comparison by unfolding walk the signature's tables again and again.)
  Imports only the library.
-/
import Idealize.ShloMosaic.Lib.StableHlo

noncomputable section

namespace Cert.LibTypedRef

open Idealize.ShloMosaic Idealize.ShloMosaic.StableHlo

/-- Contents at the value's type, seen as contents of the literal buffer `r`: the same contents. -/
theorem toBuf_lit {sig : RefSig} {Val : EltTy → Type} (r : Ref sig .tc) (h2) (h3) (v : r.ty.Contents Val) :
    (TRef.of (sig := sig) (T := r.ty) r rfl h2 h3).toBuf v = v := rfl

/-- Contents of the literal buffer `r`, seen at the value's type: the same contents. -/
theorem ofBuf_lit {sig : RefSig} {Val : EltTy → Type} (r : Ref sig .tc) (h2) (h3) (v : r.ty.Contents Val) :
    (TRef.of (sig := sig) (T := r.ty) r rfl h2 h3).ofBuf v = v := rfl

end Cert.LibTypedRef

end
-- ==== Proof.KFold.lean ====
/-
  The kernel program's result buffer, read back through the run's boundary valuations.

  The run's valuations are a fold: a stretch of host operations rewrites the buffers it writes, a region rewrites
  its output array to what its write-backs leave and keeps every other buffer. Read from the end:
    the result     = tail (region 2's output) fc_b threshold
    region 2's output = conv2 (the second aggregation) din W2 b2 fc_w
    the second aggregation = agg (take (region 1's output) src) dst
    region 1's output = conv1 (the first aggregation) din dout W1 b1
    the first aggregation = agg (take (region 0's output) src) dst
    region 0's output = scale x dout,        dout = col (invSqrtDeg src), din = col (invSqrtDeg dst),
  every argument being, at each boundary, what it was at launch (no stretch and no region writes one).
  The three regions' outputs as whole-array functions are taken as hypotheses here.
-/
import proofs.«131643_j41497974014275_1_alg».proof.Proof.Gen.KernelIdeal.Frame
import proofs.«131643_j41497974014275_1_alg».proof.Proof.Spec
import proofs.«131643_j41497974014275_1_alg».proof.Proof.LibTypedRef

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.LibTypedRef

variable [Cert.KernelIdeal.Facts] [Cert.ReferenceIdeal.Facts]
variable (m : (ℓ : Loc nD τ sig) → Buf (Elt Ideal) ℓ) (ρ : Dev nD → PrngReg) (c : Dev nD)

/-- Walks a buffer that nothing writes back through the boundaries to the launch memory. -/
macro "walk_back" : tactic => `(tactic| (
  repeat (first
    | rfl
    | rw [W12_of_ne _ _ _ _ (by decide)]
    | rw [W9_of_ne _ _ _ _ (by decide)]
    | rw [W6_of_ne _ _ _ _ (by decide)]
    | ((fail_if_no_progress dsimp only [W13, W11, W10, W8, W7, W5, W4, W3, W2, W1]); after_results))))

/-! ## The arguments at the boundaries -/

theorem arg8_12 : W12 m ρ c (Proc.devRef .tc main_arg8) = m ((c : Thread nD τ).loc main_arg8) := by walk_back
theorem arg9_12 : W12 m ρ c (Proc.devRef .tc main_arg9) = m ((c : Thread nD τ).loc main_arg9) := by walk_back
theorem arg5_11 : W11 m ρ c (Proc.devRef .tc main_arg5) = m ((c : Thread nD τ).loc main_arg5) := by walk_back
theorem arg6_11 : W11 m ρ c (Proc.devRef .tc main_arg6) = m ((c : Thread nD τ).loc main_arg6) := by walk_back
theorem arg7_11 : W11 m ρ c (Proc.devRef .tc main_arg7) = m ((c : Thread nD τ).loc main_arg7) := by walk_back
theorem arg1_9 : W9 m ρ c (Proc.devRef .tc main_arg1) = m ((c : Thread nD τ).loc main_arg1) := by walk_back
theorem arg2_9 : W9 m ρ c (Proc.devRef .tc main_arg2) = m ((c : Thread nD τ).loc main_arg2) := by walk_back
theorem arg3_8 : W8 m ρ c (Proc.devRef .tc main_arg3) = m ((c : Thread nD τ).loc main_arg3) := by walk_back
theorem arg4_8 : W8 m ρ c (Proc.devRef .tc main_arg4) = m ((c : Thread nD τ).loc main_arg4) := by walk_back
theorem arg1_6 : W6 m ρ c (Proc.devRef .tc main_arg1) = m ((c : Thread nD τ).loc main_arg1) := by walk_back
theorem arg2_6 : W6 m ρ c (Proc.devRef .tc main_arg2) = m ((c : Thread nD τ).loc main_arg2) := by walk_back
theorem arg0_5 : W5 m ρ c (Proc.devRef .tc main_arg0) = m ((c : Thread nD τ).loc main_arg0) := by walk_back

/-! ## The two degree columns: written before the first region, kept by everything after -/

theorem dout_5 : W5 m ρ c (Proc.devRef .tc main_v13)
    = Cert.Spec.col (Cert.Spec.invSqrtDeg (m ((c : Thread nD τ).loc main_arg1))) := by
  dsimp only [W5, W4, W3, W2, W1]
  after_results
  simp only [toBuf_lit main_cst_2, ofBuf_lit main_cst_2, toBuf_lit main_call0_v0, ofBuf_lit main_call0_v0, toBuf_lit main_call0_v1, ofBuf_lit main_call0_v1, toBuf_lit main_v3, ofBuf_lit main_v3, toBuf_lit main_v7, ofBuf_lit main_v7, toBuf_lit main_cst_4, ofBuf_lit main_cst_4, toBuf_lit main_call1_v0, ofBuf_lit main_call1_v0, toBuf_lit main_call1_v1, ofBuf_lit main_call1_v1, toBuf_lit main_v6, ofBuf_lit main_v6, toBuf_lit main_v10, ofBuf_lit main_v10]
  rfl

theorem din_5 : W5 m ρ c (Proc.devRef .tc main_v14)
    = Cert.Spec.col (Cert.Spec.invSqrtDeg (m ((c : Thread nD τ).loc main_arg2))) := by
  dsimp only [W5, W4, W3, W2, W1]
  after_results
  simp only [toBuf_lit main_cst_2, ofBuf_lit main_cst_2, toBuf_lit main_call0_v0, ofBuf_lit main_call0_v0, toBuf_lit main_call0_v1, ofBuf_lit main_call0_v1, toBuf_lit main_v3, ofBuf_lit main_v3, toBuf_lit main_v7, ofBuf_lit main_v7, toBuf_lit main_cst_4, ofBuf_lit main_cst_4, toBuf_lit main_call1_v0, ofBuf_lit main_call1_v0, toBuf_lit main_call1_v1, ofBuf_lit main_call1_v1, toBuf_lit main_v6, ofBuf_lit main_v6, toBuf_lit main_v10, ofBuf_lit main_v10]
  rfl

theorem dout_8 : W8 m ρ c (Proc.devRef .tc main_v13) = W5 m ρ c (Proc.devRef .tc main_v13) :=
  (show W8 m ρ c (Proc.devRef .tc main_v13) = W6 m ρ c (Proc.devRef .tc main_v13) by
    dsimp only [W8, W7]; after_results).trans
  ((W6_arr m ρ c 1).trans (((dat0 (V5 m ρ) c).arrAt_in 1 rfl _).trans (A_eq0 (V5 m ρ) c 1)))
theorem din_8 : W8 m ρ c (Proc.devRef .tc main_v14) = W5 m ρ c (Proc.devRef .tc main_v14) :=
  (show W8 m ρ c (Proc.devRef .tc main_v14) = W6 m ρ c (Proc.devRef .tc main_v14) by
    dsimp only [W8, W7]; after_results).trans
  (W6_of_ne m ρ c main_v14 (by decide))
theorem din_11 : W11 m ρ c (Proc.devRef .tc main_v14) = W5 m ρ c (Proc.devRef .tc main_v14) :=
  (show W11 m ρ c (Proc.devRef .tc main_v14) = W9 m ρ c (Proc.devRef .tc main_v14) by
    dsimp only [W11, W10]; after_results).trans
  (((W9_arr m ρ c 1).trans (((dat1 (V8 m ρ) c).arrAt_in 1 rfl _).trans (A_eq1 (V8 m ρ) c 1))).trans (din_8 m ρ c))

/-! ## The two aggregations: gather at the source words, sum into the target words -/

theorem agg1_8 : W8 m ρ c (Proc.devRef .tc main_v19)
    = Cert.Spec.agg (Cert.Spec.take (W6 m ρ c (Proc.devRef .tc main_v15)) (W6 m ρ c (Proc.devRef .tc main_arg1)))
        (W6 m ρ c (Proc.devRef .tc main_arg2)) := by
  dsimp only [W8, W7]
  after_results_simp
  simp only [toBuf_lit main_call2_c, ofBuf_lit main_call2_c, toBuf_lit main_call2_v0, ofBuf_lit main_call2_v0, toBuf_lit main_call2_v1, ofBuf_lit main_call2_v1, toBuf_lit main_call2_c_0, ofBuf_lit main_call2_c_0, toBuf_lit main_call2_v2, ofBuf_lit main_call2_v2, toBuf_lit main_call2_v3, ofBuf_lit main_call2_v3, toBuf_lit main_call2_v4, ofBuf_lit main_call2_v4, toBuf_lit main_call2_v5, ofBuf_lit main_call2_v5, toBuf_lit main_call2_c_1, ofBuf_lit main_call2_c_1, toBuf_lit main_call2_c_2, ofBuf_lit main_call2_c_2, toBuf_lit main_call2_v6, ofBuf_lit main_call2_v6, toBuf_lit main_call2_v7, ofBuf_lit main_call2_v7, toBuf_lit main_call2_v8, ofBuf_lit main_call2_v8, toBuf_lit main_call2_v9, ofBuf_lit main_call2_v9, toBuf_lit main_call2_v10, ofBuf_lit main_call2_v10, toBuf_lit main_call2_v11, ofBuf_lit main_call2_v11, toBuf_lit main_call2_c_3, ofBuf_lit main_call2_c_3, toBuf_lit main_call2_v12, ofBuf_lit main_call2_v12, toBuf_lit main_call2_v13, ofBuf_lit main_call2_v13, toBuf_lit main_call2_v14, ofBuf_lit main_call2_v14, toBuf_lit main_call2_cst, ofBuf_lit main_call2_cst, toBuf_lit main_call2_v15, ofBuf_lit main_call2_v15, toBuf_lit main_v16, ofBuf_lit main_v16, toBuf_lit main_v15, ofBuf_lit main_v15, toBuf_lit main_arg1, ofBuf_lit main_arg1]
  rfl

theorem agg2_11 : W11 m ρ c (Proc.devRef .tc main_v24)
    = Cert.Spec.agg (Cert.Spec.take (W9 m ρ c (Proc.devRef .tc main_v20)) (W9 m ρ c (Proc.devRef .tc main_arg1)))
        (W9 m ρ c (Proc.devRef .tc main_arg2)) := by
  dsimp only [W11, W10]
  after_results_simp
  simp only [toBuf_lit main_call3_c, ofBuf_lit main_call3_c, toBuf_lit main_call3_v0, ofBuf_lit main_call3_v0, toBuf_lit main_call3_v1, ofBuf_lit main_call3_v1, toBuf_lit main_call3_c_0, ofBuf_lit main_call3_c_0, toBuf_lit main_call3_v2, ofBuf_lit main_call3_v2, toBuf_lit main_call3_v3, ofBuf_lit main_call3_v3, toBuf_lit main_call3_v4, ofBuf_lit main_call3_v4, toBuf_lit main_call3_v5, ofBuf_lit main_call3_v5, toBuf_lit main_call3_c_1, ofBuf_lit main_call3_c_1, toBuf_lit main_call3_c_2, ofBuf_lit main_call3_c_2, toBuf_lit main_call3_v6, ofBuf_lit main_call3_v6, toBuf_lit main_call3_v7, ofBuf_lit main_call3_v7, toBuf_lit main_call3_v8, ofBuf_lit main_call3_v8, toBuf_lit main_call3_v9, ofBuf_lit main_call3_v9, toBuf_lit main_call3_v10, ofBuf_lit main_call3_v10, toBuf_lit main_call3_v11, ofBuf_lit main_call3_v11, toBuf_lit main_call3_c_3, ofBuf_lit main_call3_c_3, toBuf_lit main_call3_v12, ofBuf_lit main_call3_v12, toBuf_lit main_call3_v13, ofBuf_lit main_call3_v13, toBuf_lit main_call3_v14, ofBuf_lit main_call3_v14, toBuf_lit main_call3_cst, ofBuf_lit main_call3_cst, toBuf_lit main_call3_v15, ofBuf_lit main_call3_v15, toBuf_lit main_v21, ofBuf_lit main_v21, toBuf_lit main_v20, ofBuf_lit main_v20, toBuf_lit main_arg1, ofBuf_lit main_arg1]
  rfl

/-! ## The tail -/

theorem tail_13 : W13 m ρ c (Proc.devRef .tc main_v30)
    = Cert.Spec.tail (W12 m ρ c (Proc.devRef .tc main_v25)) (W12 m ρ c (Proc.devRef .tc main_arg8))
        (W12 m ρ c (Proc.devRef .tc main_arg9)) := by
  dsimp only [W13]
  after_results
  rfl

/-! ## The result -/

/-- The result buffer at the end of the run is the network's output of the launch contents of the arguments, given
    each region's output array as the whole-array function of the arrays the region finds. -/
theorem result_eq
    (h0 : ∀ (V : (c : Dev nD) → (b : Ref sig .tc) → Buf (Elt Ideal) ((c : Thread nD τ).loc b)) (c : Dev nD),
      (dat0 (F := Ideal) V c).arrAt 2 cfg0.N = Cert.Spec.scale (V c main_arg0) (V c main_v13))
    (h1 : ∀ (V : (c : Dev nD) → (b : Ref sig .tc) → Buf (Elt Ideal) ((c : Thread nD τ).loc b)) (c : Dev nD),
      (dat1 (F := Ideal) V c).arrAt 5 cfg1.N
        = Cert.Spec.conv1 (V c main_v19) (V c main_v14) (V c main_v13) (V c main_arg3) (V c main_arg4))
    (h2 : ∀ (V : (c : Dev nD) → (b : Ref sig .tc) → Buf (Elt Ideal) ((c : Thread nD τ).loc b)) (c : Dev nD),
      (dat2 (F := Ideal) V c).arrAt 5 cfg2.N
        = Cert.Spec.conv2 (V c main_v24) (V c main_v14) (V c main_arg5) (V c main_arg6) (V c main_arg7)) :
    W13 m ρ c (Proc.devRef .tc main_v30)
      = Cert.Spec.out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) := by
  have r0 : W6 m ρ c (Proc.devRef .tc main_v15)
      = Cert.Spec.scale (W5 m ρ c (Proc.devRef .tc main_arg0)) (W5 m ρ c (Proc.devRef .tc main_v13)) :=
    (W6_arr m ρ c 2).trans (h0 (V5 m ρ) c)
  have r1 : W9 m ρ c (Proc.devRef .tc main_v20)
      = Cert.Spec.conv1 (W8 m ρ c (Proc.devRef .tc main_v19)) (W8 m ρ c (Proc.devRef .tc main_v14))
          (W8 m ρ c (Proc.devRef .tc main_v13)) (W8 m ρ c (Proc.devRef .tc main_arg3))
          (W8 m ρ c (Proc.devRef .tc main_arg4)) :=
    (W9_arr m ρ c 5).trans (h1 (V8 m ρ) c)
  have r2 : W12 m ρ c (Proc.devRef .tc main_v25)
      = Cert.Spec.conv2 (W11 m ρ c (Proc.devRef .tc main_v24)) (W11 m ρ c (Proc.devRef .tc main_v14))
          (W11 m ρ c (Proc.devRef .tc main_arg5)) (W11 m ρ c (Proc.devRef .tc main_arg6))
          (W11 m ρ c (Proc.devRef .tc main_arg7)) :=
    (W12_arr m ρ c 5).trans (h2 (V11 m ρ) c)
  rw [tail_13, r2, agg2_11, r1, agg1_8, r0, arg8_12, arg9_12, arg5_11, arg6_11, arg7_11, din_11, arg1_9, arg2_9,
    arg3_8, arg4_8, din_8, dout_8, arg1_6, arg2_6, arg0_5, dout_5, din_5]
  rfl

end Cert.KernelIdeal.Fold

end
-- ==== Proof.LibBcast.lean ====
/-
  `broadcast_in_dim` of small shapes read at one entry, at ANY extents and any element type.

  * A column [N, 1] repeated along C columns (operand axes to result axes 0, 1) reads, at (n, c), the column at (n, 0)
    (`bcastCol_apply`); a row [1, C] repeated along N rows reads, at (n, c), the row at (0, c) (`bcastRow_apply`).
  * A vector [C] laid as a row [1, C] (operand axis to result axis 1) reads, at (u, c), the vector at c
    (`bcastVecRow_apply`); a vector [N] laid as a column [N, 1] (operand axis to result axis 0) reads, at (n, u), the
    vector at n (`bcastVecCol_apply`).
  * A scalar broadcast to any shape reads, at any index, the scalar (`bcastScalar_apply`).
  Imports only the library.
-/
import Idealize.ShloMosaic.Lib.ValueIdx
import Idealize.ShloMosaic.Lib.Pipeline.Value

noncomputable section

namespace Cert.LibBcast

open Idealize.ShloMosaic Idealize.ShloMosaic.ValueIdx

variable {α : Type}

/-- A column [N, 1] repeated along C columns reads, at (n, c), the column at (n, 0). -/
theorem bcastCol_apply {N C : Nat} (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) := by
  refine broadcastInDim_apply ![0, 1] h x (ix2 n c) (ix2 n (0 : Fin 1)) fun a => ?_
  match a with
  | ⟨0, _⟩ =>
    show n.val = if N = 1 then 0 else n.val
    split
    · have := n.isLt; omega
    · rfl
  | ⟨1, _⟩ => rfl

/-- A row [1, C] repeated along N rows reads, at (n, c), the row at (0, c). -/
theorem bcastRow_apply {N C : Nat} (x : (⟨2, ![1, C]⟩ : Shape).Idx → α)
    (h : (⟨2, ![1, C]⟩ : Shape).BroadcastsInDim ⟨2, ![N, C]⟩ ![0, 1]) (n : Fin N) (c : Fin C) :
    broadcastInDim ⟨2, ![N, C]⟩ ![0, 1] h x (ix2 n c) = x (ix2 (0 : Fin 1) c) := by
  refine broadcastInDim_apply ![0, 1] h x (ix2 n c) (ix2 (0 : Fin 1) c) fun a => ?_
  match a with
  | ⟨0, _⟩ => rfl
  | ⟨1, _⟩ =>
    show c.val = if C = 1 then 0 else c.val
    split
    · have := c.isLt; omega
    · rfl

/-- A vector [C] laid as a row [1, C] reads, at (u, c), the vector at c. -/
theorem bcastVecRow_apply {C : Nat} (x : (⟨1, ![C]⟩ : Shape).Idx → α)
    (h : (⟨1, ![C]⟩ : Shape).BroadcastsInDim ⟨2, ![1, C]⟩ ![1]) (u : Fin 1) (c : Fin C) :
    broadcastInDim ⟨2, ![1, C]⟩ ![1] h x (ix2 u c) = x (ix1 c) := by
  refine broadcastInDim_apply ![1] h x (ix2 u c) (ix1 c) fun a => ?_
  match a with
  | ⟨0, _⟩ =>
    show c.val = if C = 1 then 0 else c.val
    split
    · have := c.isLt; omega
    · rfl

/-- A vector [N] laid as a column [N, 1] reads, at (n, u), the vector at n. -/
theorem bcastVecCol_apply {N : Nat} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply ![0] h x (ix2 n u) (ix1 n) fun a => ?_
  match a with
  | ⟨0, _⟩ =>
    show n.val = if N = 1 then 0 else n.val
    split
    · have := n.isLt; omega
    · rfl

/-- A scalar broadcast to any shape reads, at any index, the scalar. -/
theorem bcastScalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun a => a.elim0

end Cert.LibBcast

end
-- ==== Proof.Region0.lean ====
/-
  The first dense stage, block by block.

  The stage multiplies row n of the feature array x by entry n of the column d (the source-side degree factor).
  It is computed in ten blocks of 5000 rows: block t holds rows 5000·t … 5000·t + 4999 of x and of d, and the body
  forms, at entry (y, q) of the block, x_blk(y, q) · d_blk(y, 0).  Row y of block t is row 5000·t + y of the
  arrays, so each block written back is the matching block of the whole-array function
      (n, q) ↦ x(n, q) · d(n, 0),
  and the ten blocks tile the 50000 rows: the output array ends holding that function.
-/
import proofs.«131643_j41497974014275_1_alg».proof.Proof.Gen.KernelIdeal.Frame
import proofs.«131643_j41497974014275_1_alg».proof.Proof.Spec
import proofs.«131643_j41497974014275_1_alg».proof.Proof.LibBcast
import Idealize.ShloMosaic.Lib.Pipeline.Value
import Idealize.ShloMosaic.Lib.ValueIdx
import Idealize.ShloMosaic.Lib.ValueLayout

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

variable [Cert.KernelIdeal.Facts] [Cert.ReferenceIdeal.Facts]

/-! ## The two sides at one entry -/

theorem zero_offsets : (![0, 0] : Fin 2 → Nat) = fun _ => 0 := funext fun a => by fin_cases a <;> rfl

/-- A column [a, 1] repeated along b columns (the vector broadcast) reads, at (p, q), the column at (p, 0). -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at entry (y, q) of a block: the feature entry times the column's entry of the same row. -/
theorem payload_apply (x0 : Vec Ideal S5000x128 .f32) (x1 : Vec Ideal S5000x1 .f32) (y : Fin 5000) (q : Fin 128) :
    k0_pay1 (F := Ideal) x0 x1 (ix2 y q) = x0 (ix2 y q) * x1 (ix2 y (0 : Fin 1)) := by
  unfold k0_pay1
  rw [shapeCast_self]
  refine (mulf_apply x0 _ (ix2 y q)).trans ?_
  exact congrArg (fun z => x0 (ix2 y q) * z) (broadcastTo_col_apply x1 broadcasts_S5000x1_S5000x128 y q)

/-- The whole-array stage at entry (n, q): the feature entry times the column's entry of row n. -/
theorem scale_apply (x : Cert.Spec.R Cert.ReferenceIdeal.S50000x128) (d : Cert.Spec.R Cert.ReferenceIdeal.S50000x1)
    (n : Fin 50000) (q : Fin 128) :
    Cert.Spec.scale x d (ix2 n q) = x (ix2 n q) * d (ix2 n (0 : Fin 1)) := by
  unfold Cert.Spec.scale Cert.Spec.wide
  refine (mulf_apply x _ (ix2 n q)).trans ?_
  exact congrArg (fun z => x (ix2 n q) * z) (Cert.LibBcast.bcastCol_apply d _ n q)

/-- A block's entry against the array's entry: if the feature block at j is the feature array at i, and the column
    block at the row of j is the column array at the row of i, the body's value at j is the stage's value at i. -/
theorem block_entry (X : Cert.Spec.R Cert.ReferenceIdeal.S50000x128) (D : Cert.Spec.R Cert.ReferenceIdeal.S50000x1)
    (x0 : Vec Ideal S5000x128 .f32) (x1 : Vec Ideal S5000x1 .f32) (j : S5000x128.Idx) (i : S50000x128.Idx)
    (h0 : x0 j = X i)
    (h1 : ∀ (u : S5000x1.Idx) (k : S50000x1.Idx), (u 0).val = (j 0).val → (k 0).val = (i 0).val → x1 u = D k) :
    k0_pay1 (F := Ideal) x0 x1 j = Cert.Spec.scale X D i := by
  obtain ⟨y, q, rfl⟩ : ∃ (y : Fin 5000) (q : Fin 128), j = ix2 y q := ⟨j 0, j 1, eq_ix2 j⟩
  obtain ⟨n, r, rfl⟩ : ∃ (n : Fin 50000) (r : Fin 128), i = ix2 n r := ⟨i 0, i 1, eq_ix2 i⟩
  rw [payload_apply, scale_apply, h0, h1 (ix2 y (0 : Fin 1)) (ix2 n (0 : Fin 1)) rfl rfl]

/-! ## From the blocks to the array -/

/-- The block indices over the ten grid points: both inputs move with the output along the rows, at block column 0. -/
theorem index_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some grid point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- What grid point t writes back is block t of the whole-array stage. -/
theorem flushed_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (Cert.Spec.scale (V c main_arg0) (V c main_v13)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S5000x1) zero_offsets]
  obtain ⟨e0, e1, e2, e3, e4, e5⟩ := index_facts t
  funext j
  refine block_entry (V c main_arg0) (V c main_v13) (iblk0 V c 0 t) (iblk0 V c 1 t)
    ((cfg0.win 2).xinj (grid0.coords t) j) (((cfg0.win 2).blk t).view.emb j) ?_ ?_
  · show V c main_arg0 (((cfg0.win 0).blk t).view.emb ((cfg0.win 2).xinj (grid0.coords t) j))
        = V c main_arg0 (((cfg0.win 2).blk t).view.emb j)
    refine congrArg (V c main_arg0) (funext fun a => Fin.ext ?_)
    match a with
    | ⟨0, _⟩ =>
      show win0_0.index t (0 : Fin 2) * 5000 + 1 * (j (0 : Fin 2)).val = win0_2.index t (0 : Fin 2) * 5000 + 1 * (j (0 : Fin 2)).val
      omega
    | ⟨1, _⟩ =>
      show win0_0.index t (1 : Fin 2) * 128 + 1 * (j (1 : Fin 2)).val = win0_2.index t (1 : Fin 2) * 128 + 1 * (j (1 : Fin 2)).val
      omega
  · intro u k hu hk
    show V c main_v13 (((cfg0.win 1).blk t).view.emb u) = V c main_v13 k
    refine congrArg (V c main_v13) (funext fun a => Fin.ext ?_)
    match a with
    | ⟨0, _⟩ =>
      have hk' : (k 0).val = win0_2.index t (0 : Fin 2) * 5000 + 1 * (j (0 : Fin 2)).val := hk
      have hu' : (u 0).val = (j (0 : Fin 2)).val := hu
      show win0_1.index t (0 : Fin 2) * 5000 + 1 * (u 0).val = (k 0).val
      omega
    | ⟨1, _⟩ =>
      have hk1 : (k 1).val < 1 := (k 1).isLt
      have hu1 : (u 1).val < 1 := (u 1).isLt
      show win0_1.index t (1 : Fin 2) * 1 + 1 * (u 1).val = (k 1).val
      omega

/-- An index of the array lies in grid point t's block iff each coordinate lies in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v15).slice (win0_2.rect t)).set ↔ _
  rw [View.set_slice_whole, Rect.mem_set_unit]
  exact Iff.rfl

/-- The ten blocks cover the array: row n lies in the block of index n / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The output array after the region: the whole-array stage of the arrays the region finds. -/
theorem scale_value (V : (c : Dev nD) → (b : Ref sig .tc) → Buf (Elt Ideal) ((c : Thread nD τ).loc b)) (c : Dev nD) :
    (dat0 (F := Ideal) V c).arrAt 2 cfg0.N = Cert.Spec.scale (V c main_arg0) (V c main_v13) :=
  (dat0 (F := Ideal) V c).arrAt_eq_of_cover 2 (Cert.Spec.scale (V c main_arg0) (V c main_v13))
    (fun t _ => flushed_eq V c t) covered

end Cert.KernelIdeal.Region0

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibHostDot.lean ====
/-
  The host's matrix product read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values the host's `dot_general` has, at
  entry (p, q), the value
      Σ_{k < K} l(p, k) · r(k, q).
  The sum over the contraction shape's one-axis index type is re-indexed over `Fin K`; the operand indices the
  dimension numbers read at result entry (p, q) and contracted position k are (p, k) and (k, q).

  The hypotheses `hl0` and `hr1` say that the result's axis 0 is the left operand's axis 0 and the result's axis 1
  the right operand's axis 1; for a printed record `D` with no batch axes each is
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibHostDot

open Idealize.ShloMosaic Idealize.ShloMosaic.ValueIdx

/-- `Host.dotGeneral D prec l r (p, q) = Σ_k l(p, k) · r(k, q)` at the ideal values, for two-dimensional operands
    with one contracted axis. -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral D prec l r (ix2 p q) = ∑ k : Fin K, l (ix2 p k) * r (ix2 k q) := by
  simp only [Host.dotGeneral]
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibHostDot

end
-- ==== Proof.Region1.lean ====
/-
  The first layer's dense part, block by block.

  With a the aggregated features, din and dout the target- and source-side degree columns, W the weight matrix
  and b the bias, the stage is
      (n, q) ↦ max( Σ_k (a(n, k) · din(n, 0)) · W(k, q) + b(q), 0 ) · dout(n, 0).
  It is computed in ten blocks of 5000 rows; W and b are read whole at every grid point.  At entry (y, q) of block t
  the body forms the same expression of the block's rows: the product into the zero accumulator is
  Σ_k l(y, k) · r(k, q), the narrowing of the operands is the identity on the extended reals, the bias row and
  the two degree columns are broadcasts.  Row y of block t is row 5000·t + y of the arrays, so every block written
  back is the matching block of the whole-array function, and the ten blocks tile the 50000 rows.
-/
import proofs.«131643_j41497974014275_1_alg».proof.Proof.Gen.KernelIdeal.Frame
import proofs.«131643_j41497974014275_1_alg».proof.Proof.Spec
import proofs.«131643_j41497974014275_1_alg».proof.Proof.LibBcast
import proofs.«131643_j41497974014275_1_alg».proof.Proof.LibMatmulZero
import proofs.«131643_j41497974014275_1_alg».proof.Proof.LibHostDot
import Idealize.ShloMosaic.Lib.Pipeline.Value
import Idealize.ShloMosaic.Lib.ValueIdx
import Idealize.ShloMosaic.Lib.ValueLayout

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

variable [Cert.KernelIdeal.Facts] [Cert.ReferenceIdeal.Facts]

/-! ## The two sides at one entry -/

theorem zero_offsets2 : (![0, 0] : Fin 2 → Nat) = fun _ => 0 := funext fun a => by fin_cases a <;> rfl
theorem zero_offsets1 : (![0] : Fin 1 → Nat) = fun _ => 0 := funext fun a => by fin_cases a; rfl

/-- A column [a, 1] repeated along b columns (the vector broadcast) reads, at (p, q), the column at (p, 0). -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The value both sides have at an entry, as a function of the row of a, the two degree entries of that row, the
    column of W and the bias entry. -/
def entry (arow : Fin 128 → EReal) (din dout : EReal) (wcol : Fin 128 → EReal) (bias : EReal) : EReal :=
  max ((∑ k : Fin 128, (arow k * din) * wcol k) + bias) (Ideal.ofBits .f32 0x00000000#32) * dout

/-- The body's arithmetic at entry (y, q) of a block. -/
theorem payload_apply (v0 : Vec Ideal S5000x128 .f32) (v2 : Vec Ideal S5000x1 .f32) (v7 : Vec Ideal S128x128 .f32)
    (v10 : Vec Ideal S128 .f32) (v16 : Vec Ideal S5000x1 .f32) (y : Fin 5000) (q : Fin 128) :
    k1_pay1 (F := Ideal) v0 v2 v7 v10 v16 (ix2 y q)
      = entry (fun k => v0 (ix2 y k)) (v2 (ix2 y (0 : Fin 1))) (v16 (ix2 y (0 : Fin 1))) (fun k => v7 (ix2 k q)) (v10 (ix1 q)) := by
  unfold k1_pay1 entry
  simp only [shapeCast_self]
  refine (mulf_apply _ _ (ix2 y q)).trans ?_
  refine congrArg₂ (· * ·) ?_ (broadcastTo_col_apply v16 broadcasts_S5000x1_S5000x128 y q)
  refine (maximumf_apply _ _ (ix2 y q)).trans ?_
  refine congrArg₂ max ?_ rfl
  refine (addf_apply _ _ (ix2 y q)).trans ?_
  refine congrArg₂ (· + ·) ?_ ?_
  · refine (Cert.LibMatmulZero.matmul_zero_ix2 dot_S5000x128_S128x128_S5000x128_1_0_0_1_n_n rfl rfl rfl rfl
      (fun i c => by
        unfold DotDims.lhsIdx
        rw [dif_neg (show ¬(0 : Fin _) ∈ dot_S5000x128_S128x128_S5000x128_1_0_0_1_n_n.lhsBatch by decide),
          dif_pos (show (0 : Fin _) ∈ dot_S5000x128_S128x128_S5000x128_1_0_0_1_n_n.lhsNonContracting by decide)]
        rfl)
      (fun i c => by
        unfold DotDims.rhsIdx
        rw [dif_neg (show ¬(1 : Fin _) ∈ dot_S5000x128_S128x128_S5000x128_1_0_0_1_n_n.rhsBatch by decide),
          dif_pos (show (1 : Fin _) ∈ dot_S5000x128_S128x128_S5000x128_1_0_0_1_n_n.rhsNonContracting by decide)]
        rfl)
      none _ _ y q).trans ?_
    refine Finset.sum_congr rfl fun k _ => ?_
    refine congrArg₂ (· * ·) ?_ rfl
    refine (mulf_apply v0 _ (ix2 y k)).trans ?_
    exact congrArg (fun z => v0 (ix2 y k) * z) (broadcastTo_col_apply v2 broadcasts_S5000x1_S5000x128 y k)
  · refine (broadcastTo_1b_ab_apply _ broadcasts_S1x128_S5000x128 y q).trans ?_
    exact shapeCast_a_1a_apply v10 shapeCasts_S128_S1x128 (0 : Fin 1) q

/-- The whole-array stage at entry (n, q). -/
theorem conv1_apply (a : Cert.Spec.R Cert.ReferenceIdeal.S50000x128) (din dout : Cert.Spec.R Cert.ReferenceIdeal.S50000x1)
    (W : Cert.Spec.R Cert.ReferenceIdeal.S128x128) (b : Cert.Spec.R Cert.ReferenceIdeal.S128) (n : Fin 50000) (q : Fin 128) :
    Cert.Spec.conv1 a din dout W b (ix2 n q)
      = entry (fun k => a (ix2 n k)) (din (ix2 n (0 : Fin 1))) (dout (ix2 n (0 : Fin 1))) (fun k => W (ix2 k q)) (b (ix1 q)) := by
  unfold Cert.Spec.conv1 Cert.Spec.dense Cert.Spec.relu Cert.Spec.wide entry
  refine (mulf_apply _ _ (ix2 n q)).trans ?_
  refine congrArg₂ (· * ·) ?_ (Cert.LibBcast.bcastCol_apply dout _ n q)
  refine (maximumf_apply _ _ (ix2 n q)).trans ?_
  refine congrArg₂ max ?_ ?_
  · refine (addf_apply _ _ (ix2 n q)).trans ?_
    refine congrArg₂ (· + ·) ?_ ?_
    · refine (Cert.LibHostDot.dotGeneral_ix2 Cert.ReferenceIdeal.dot_S50000x128_S128x128_S50000x128_1_0_0_1_n_n rfl rfl rfl rfl
        (fun i c => by
          unfold DotDims.lhsIdx
          rw [dif_neg (show ¬(0 : Fin _) ∈ Cert.ReferenceIdeal.dot_S50000x128_S128x128_S50000x128_1_0_0_1_n_n.lhsBatch from List.not_mem_nil),
            dif_pos (show (0 : Fin _) ∈ Cert.ReferenceIdeal.dot_S50000x128_S128x128_S50000x128_1_0_0_1_n_n.lhsNonContracting from List.mem_singleton.mpr rfl)]
          rfl)
        (fun i c => by
          unfold DotDims.rhsIdx
          rw [dif_neg (show ¬(1 : Fin _) ∈ Cert.ReferenceIdeal.dot_S50000x128_S128x128_S50000x128_1_0_0_1_n_n.rhsBatch from List.not_mem_nil),
            dif_pos (show (1 : Fin _) ∈ Cert.ReferenceIdeal.dot_S50000x128_S128x128_S50000x128_1_0_0_1_n_n.rhsNonContracting from List.mem_singleton.mpr rfl)]
          rfl)
        none _ _ n q).trans ?_
      refine Finset.sum_congr rfl fun k _ => ?_
      refine congrArg₂ (· * ·) ?_ rfl
      refine (mulf_apply a _ (ix2 n k)).trans ?_
      exact congrArg (fun z => a (ix2 n k) * z) (Cert.LibBcast.bcastCol_apply din _ n k)
    · refine (Cert.LibBcast.bcastRow_apply _ _ n q).trans ?_
      exact Cert.LibBcast.bcastVecRow_apply b _ (0 : Fin 1) q
  · exact Cert.LibBcast.bcastScalar_apply _ _ (ix2 n q)

/-- A block's entry against the array's entry: when the blocks' rows at the row of j are the arrays' rows at the row
    of i, the columns agree, and the weight and bias blocks are the whole arrays, the body's value at j is the stage's
    value at i. -/
theorem block_entry (A : Cert.Spec.R Cert.ReferenceIdeal.S50000x128) (Din Dout : Cert.Spec.R Cert.ReferenceIdeal.S50000x1)
    (W : Cert.Spec.R Cert.ReferenceIdeal.S128x128) (B : Cert.Spec.R Cert.ReferenceIdeal.S128)
    (x0 : Vec Ideal S5000x128 .f32) (x1 x2 : Vec Ideal S5000x1 .f32) (x3 : Vec Ideal S128x128 .f32) (x4 : Vec Ideal S128 .f32)
    (j : S5000x128.Idx) (i : S50000x128.Idx) (hq : (j 1).val = (i 1).val)
    (h0 : ∀ (u : S5000x128.Idx) (k : S50000x128.Idx), (u 0).val = (j 0).val → (k 0).val = (i 0).val → (u 1).val = (k 1).val → x0 u = A k)
    (h1 : ∀ (u : S5000x1.Idx) (k : S50000x1.Idx), (u 0).val = (j 0).val → (k 0).val = (i 0).val → x1 u = Din k)
    (h2 : ∀ (u : S5000x1.Idx) (k : S50000x1.Idx), (u 0).val = (j 0).val → (k 0).val = (i 0).val → x2 u = Dout k)
    (h3 : x3 = W) (h4 : x4 = B) :
    k1_pay1 (F := Ideal) x0 x1 x3 x4 x2 j = Cert.Spec.conv1 A Din Dout W B i := by
  obtain ⟨y, q, rfl⟩ : ∃ (y : Fin 5000) (q : Fin 128), j = ix2 y q := ⟨j 0, j 1, eq_ix2 j⟩
  obtain ⟨n, r, rfl⟩ : ∃ (n : Fin 50000) (r : Fin 128), i = ix2 n r := ⟨i 0, i 1, eq_ix2 i⟩
  obtain rfl : q = r := Fin.ext hq
  subst h3 h4
  rw [payload_apply, conv1_apply, h1 (ix2 y (0 : Fin 1)) (ix2 n (0 : Fin 1)) rfl rfl,
    h2 (ix2 y (0 : Fin 1)) (ix2 n (0 : Fin 1)) rfl rfl]
  congr 1
  funext k
  exact h0 (ix2 y k) (ix2 n k) rfl rfl rfl

/-! ## From the blocks to the array -/

/-- The block indices over the ten grid points: the three row-tiled inputs move with the output along the rows, at
    block column 0; the weight and bias windows stay at block 0. -/
theorem index_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = win1_5.index t (0 : Fin 2)
    ∧ win1_2.index t (1 : Fin 2) = 0
    ∧ win1_3.index t (0 : Fin 2) = 0
    ∧ win1_3.index t (1 : Fin 2) = 0
    ∧ win1_4.index t (0 : Fin 1) = 0
    ∧ win1_5.index t (1 : Fin 2) = 0
    ∧ win1_5.index t (0 : Fin 2) ≤ 9 :=
  (by decide +kernel : ∀ t : Fin grid1.N, _)

/-- Every one of the ten row blocks is some grid point's. -/
theorem index_onto : ∀ q0 : Fin 10, ∃ t : Fin cfg1.N, win1_5.index t = ![q0.val, 0] :=
  (by decide +kernel : ∀ q0 : Fin 10, ∃ t : Fin grid1.N, win1_5.index t = ![q0.val, 0])

/-- What grid point t writes back is block t of the whole-array stage. -/
theorem flushed_eq (V : (c : Dev nD) → (b : Ref sig .tc) → Buf (Elt Ideal) ((c : Thread nD τ).loc b)) (c : Dev nD)
    (t : Fin cfg1.N) :
    (dat1 (F := Ideal) V c).flushed 5 t
      = ((cfg1.win 5).blk t).view.read (Elt Ideal)
          (Cert.Spec.conv1 (V c main_v19) (V c main_v14) (V c main_v13) (V c main_arg3) (V c main_arg4)) := by
  show (cfg1.win 5).cut (grid1.coords t) ((dat1 (F := Ideal) V c).after 5 t) = _
  rw [after1_5]
  unfold out1_5
  rw [View.canon_unit_zero zero_offsets2]
  simp only [View.ld_unit_zero (S := S5000x128) zero_offsets2, View.ld_unit_zero (S := S5000x1) zero_offsets2,
    View.ld_unit_zero (S := S128x128) zero_offsets2, View.ld_unit_zero (S := S128) zero_offsets1]
  obtain ⟨e0, e1, e2, e3, e4, e5, e6, e7, e8, e9, e10⟩ := index_facts t
  funext j
  refine block_entry (V c main_v19) (V c main_v14) (V c main_v13) (V c main_arg3) (V c main_arg4)
    (iblk1 V c 0 t) (iblk1 V c 1 t) (iblk1 V c 2 t) (iblk1 V c 3 t) (iblk1 V c 4 t)
    ((cfg1.win 5).xinj (grid1.coords t) j) (((cfg1.win 5).blk t).view.emb j) ?_ ?_ ?_ ?_ ?_ ?_
  · show (j (1 : Fin 2)).val = win1_5.index t (1 : Fin 2) * 128 + 1 * (j (1 : Fin 2)).val
    omega
  · intro u k hu hk huk
    show V c main_v19 (((cfg1.win 0).blk t).view.emb u) = V c main_v19 k
    refine congrArg (V c main_v19) (funext fun a => Fin.ext ?_)
    match a with
    | ⟨0, _⟩ =>
      have hk' : (k 0).val = win1_5.index t (0 : Fin 2) * 5000 + 1 * (j (0 : Fin 2)).val := hk
      have hu' : (u 0).val = (j (0 : Fin 2)).val := hu
      show win1_0.index t (0 : Fin 2) * 5000 + 1 * (u 0).val = (k 0).val
      omega
    | ⟨1, _⟩ =>
      show win1_0.index t (1 : Fin 2) * 128 + 1 * (u 1).val = (k 1).val
      omega
  · intro u k hu hk
    show V c main_v14 (((cfg1.win 1).blk t).view.emb u) = V c main_v14 k
    refine congrArg (V c main_v14) (funext fun a => Fin.ext ?_)
    match a with
    | ⟨0, _⟩ =>
      have hk' : (k 0).val = win1_5.index t (0 : Fin 2) * 5000 + 1 * (j (0 : Fin 2)).val := hk
      have hu' : (u 0).val = (j (0 : Fin 2)).val := hu
      show win1_1.index t (0 : Fin 2) * 5000 + 1 * (u 0).val = (k 0).val
      omega
    | ⟨1, _⟩ =>
      have hk1 : (k 1).val < 1 := (k 1).isLt
      have hu1 : (u 1).val < 1 := (u 1).isLt
      show win1_1.index t (1 : Fin 2) * 1 + 1 * (u 1).val = (k 1).val
      omega
  · intro u k hu hk
    show V c main_v13 (((cfg1.win 2).blk t).view.emb u) = V c main_v13 k
    refine congrArg (V c main_v13) (funext fun a => Fin.ext ?_)
    match a with
    | ⟨0, _⟩ =>
      have hk' : (k 0).val = win1_5.index t (0 : Fin 2) * 5000 + 1 * (j (0 : Fin 2)).val := hk
      have hu' : (u 0).val = (j (0 : Fin 2)).val := hu
      show win1_2.index t (0 : Fin 2) * 5000 + 1 * (u 0).val = (k 0).val
      omega
    | ⟨1, _⟩ =>
      have hk1 : (k 1).val < 1 := (k 1).isLt
      have hu1 : (u 1).val < 1 := (u 1).isLt
      show win1_2.index t (1 : Fin 2) * 1 + 1 * (u 1).val = (k 1).val
      omega
  · funext u
    show V c main_arg3 (((cfg1.win 3).blk t).view.emb u) = V c main_arg3 u
    refine congrArg (V c main_arg3) (funext fun a => Fin.ext ?_)
    match a with
    | ⟨0, _⟩ =>
      show win1_3.index t (0 : Fin 2) * 128 + 1 * (u 0).val = (u 0).val
      omega
    | ⟨1, _⟩ =>
      show win1_3.index t (1 : Fin 2) * 128 + 1 * (u 1).val = (u 1).val
      omega
  · funext u
    show V c main_arg4 (((cfg1.win 4).blk t).view.emb u) = V c main_arg4 u
    refine congrArg (V c main_arg4) (funext fun a => Fin.ext ?_)
    match a with
    | ⟨0, _⟩ =>
      show win1_4.index t (0 : Fin 1) * 128 + 1 * (u 0).val = (u 0).val
      omega

/-- An index of the array lies in grid point t's block iff each coordinate lies in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v20).slice (win1_5.rect t)).set ↔ _
  rw [View.set_slice_whole, Rect.mem_set_unit]
  exact Iff.rfl

/-- The ten blocks cover the array: row n lies in the block of index n / 5000. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- The output array after the region: the whole-array stage of the arrays the region finds. -/
theorem conv1_value (V : (c : Dev nD) → (b : Ref sig .tc) → Buf (Elt Ideal) ((c : Thread nD τ).loc b)) (c : Dev nD) :
    (dat1 (F := Ideal) V c).arrAt 5 cfg1.N
      = Cert.Spec.conv1 (V c main_v19) (V c main_v14) (V c main_v13) (V c main_arg3) (V c main_arg4) :=
  (dat1 (F := Ideal) V c).arrAt_eq_of_cover 5
    (Cert.Spec.conv1 (V c main_v19) (V c main_v14) (V c main_v13) (V c main_arg3) (V c main_arg4))
    (fun t _ => flushed_eq V c t) covered

end Cert.KernelIdeal.Region1

end
-- ==== Proof.Region2.lean ====
/-
  The third dense stage of the network, read off the block program: what the last of the three block-wise regions
  leaves in its output column, as one function of the arrays the region finds.

  The region walks the 50000 nodes in ten blocks of 5000 rows. At block t it reads rows 5000·t … 5000·t + 4999 of the
  aggregated features a [50000, 128] and of the degree column din [50000, 1], and the whole weight matrix W [128, 128],
  bias b [128] and read-out column fcw [128, 1]; it writes rows 5000·t … 5000·t + 4999 of the output column. For a row
  y of the block (node p = 5000·t + y) the body computes

      Σ_j max( Σ_k (a(p, k) · din(p, 0)) · W(k, j) + b(j), 0 ) · fcw(j, 0),

  the two roundings to the 16-bit format being the identity on the extended reals. The whole-array function
  `Cert.Spec.conv2` is, at node p, the same double sum: each matrix product is read at one entry as a sum over the
  contracted axis, each broadcast as the operand's entry. No algebra is needed beyond matching the two sums term by
  term, so nothing is asked of the entries (they may be infinite).

  The ten blocks tile the column (node n lies in block n / 5000, and every point writes its block back), so the column
  after the region is that function at every node.
-/
import proofs.«131643_j41497974014275_1_alg».proof.Proof.Gen.KernelIdeal.Frame
import proofs.«131643_j41497974014275_1_alg».proof.Proof.Spec
import proofs.«131643_j41497974014275_1_alg».proof.Proof.LibMatmulZero
import proofs.«131643_j41497974014275_1_alg».proof.Proof.LibHostDot
import proofs.«131643_j41497974014275_1_alg».proof.Proof.LibBcast
import Idealize.ShloMosaic.Lib.Pipeline.Value
import Idealize.ShloMosaic.Lib.ValueLayout

noncomputable section
namespace Cert.KernelIdeal.Region2
open Idealize.ShloMosaic Idealize.ShloMosaic.TcCoe Idealize.SL.Sem Idealize.ShloMosaic.ValueIdx
open Cert.KernelIdeal Cert.KernelIdeal.Gen

/-- The zero offsets of a whole two-axis block, as a constant function. -/
theorem zeroOff2 : (![0, 0] : Fin 2 → Nat) = fun _ => 0 := funext fun a => by fin_cases a <;> rfl

/-- The zero offset of a whole one-axis block, as a constant function. -/
theorem zeroOff1 : (![0] : Fin 1 → Nat) = fun _ => 0 := funext fun a => by fin_cases a <;> rfl

/-- The printed index maps, decided over the grid: the node-indexed windows (the aggregated rows, the degree column and
    the output column) sit at block t on the row axis and block 0 on the other; the weights, the bias and the read-out
    column are whole arrays at every point. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable [Cert.KernelIdeal.Facts] [Cert.ReferenceIdeal.Facts]

/-- A column [a, 1] repeated along b columns by the vector-dialect broadcast reads, at (p, c), the column at (p, 0). -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The result's row is the left operand's row: the block's first product. -/
theorem lrow_A (i : (⟨2, ![5000, 128]⟩ : Shape).Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin _) ∈ dot_S5000x128_S128x128_S5000x128_1_0_0_1_n_n.lhsBatch by decide),
    dif_pos (show (0 : Fin _) ∈ dot_S5000x128_S128x128_S5000x128_1_0_0_1_n_n.lhsNonContracting by decide)]
  rfl

/-- The result's column is the right operand's column: the block's first product. -/
theorem rcol_A (i : (⟨2, ![5000, 128]⟩ : Shape).Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin _) ∈ dot_S5000x128_S128x128_S5000x128_1_0_0_1_n_n.rhsBatch by decide),
    dif_pos (show (1 : Fin _) ∈ dot_S5000x128_S128x128_S5000x128_1_0_0_1_n_n.rhsNonContracting by decide)]
  rfl

/-- The result's row is the left operand's row: the block's read-out product. -/
theorem lrow_B (i : (⟨2, ![5000, 1]⟩ : Shape).Idx) (c : dot_S5000x128_S128x1_S5000x1_1_0_0_1_n_n.contr.Idx) :
    (dot_S5000x128_S128x1_S5000x1_1_0_0_1_n_n.lhsIdx i c 0).val = (i 0).val := by
  unfold DotDims.lhsIdx
  rw [dif_neg (show ¬(0 : Fin _) ∈ dot_S5000x128_S128x1_S5000x1_1_0_0_1_n_n.lhsBatch by decide),
    dif_pos (show (0 : Fin _) ∈ dot_S5000x128_S128x1_S5000x1_1_0_0_1_n_n.lhsNonContracting by decide)]
  rfl

/-- The result's column is the right operand's column: the block's read-out product. -/
theorem rcol_B (i : (⟨2, ![5000, 1]⟩ : Shape).Idx) (c : dot_S5000x128_S128x1_S5000x1_1_0_0_1_n_n.contr.Idx) :
    (dot_S5000x128_S128x1_S5000x1_1_0_0_1_n_n.rhsIdx i c 1).val = (i 1).val := by
  unfold DotDims.rhsIdx
  rw [dif_neg (show ¬(1 : Fin _) ∈ dot_S5000x128_S128x1_S5000x1_1_0_0_1_n_n.rhsBatch by decide),
    dif_pos (show (1 : Fin _) ∈ dot_S5000x128_S128x1_S5000x1_1_0_0_1_n_n.rhsNonContracting by decide)]
  rfl

/-- The body's arithmetic at row y of a block: Σ_j max(Σ_k (x0(y,k)·x1(y,0))·x2(k,j) + x3(j), 0)·x4(j,u). -/
theorem pay_apply (x0 : FVec Ideal S5000x128 .f32) (x1 : FVec Ideal S5000x1 .f32) (x2 : FVec Ideal S128x128 .f32)
    (x3 : FVec Ideal S128 .f32) (x4 : FVec Ideal S128x1 .f32) (y : Fin 5000) (u : Fin 1) :
    k2_pay1 (F := Ideal) x0 x1 x2 x3 x4 (ix2 y u)
      = ∑ j : Fin 128, max (∑ k : Fin 128, (x0 (ix2 y k) * x1 (ix2 y (0 : Fin 1))) * x2 (ix2 k j) + x3 (ix1 j)) 0
          * x4 (ix2 j u) := by
  unfold k2_pay1
  refine (Cert.LibMatmulZero.matmul_zero_ix2 dot_S5000x128_S128x1_S5000x1_1_0_0_1_n_n rfl rfl rfl rfl lrow_B rcol_B
    none _ _ y u).trans ?_
  refine Finset.sum_congr rfl fun j _ => ?_
  refine congrArg (fun z : EReal => z * x4 (ix2 j u)) ?_
  refine congrArg₂ (fun a b : EReal => max a b) ?_ ?_
  · refine congrArg₂ (fun a b : EReal => a + b) ?_ ?_
    · refine (Cert.LibMatmulZero.matmul_zero_ix2 dot_S5000x128_S128x128_S5000x128_1_0_0_1_n_n rfl rfl rfl rfl lrow_A rcol_A
        none _ _ y j).trans ?_
      refine Finset.sum_congr rfl fun k _ => ?_
      refine congrArg (fun z : EReal => z * x2 (ix2 k j)) ?_
      refine congrArg₂ (fun a b : EReal => a * b) ?_ ?_
      · exact congrFun (shapeCast_self x0 _) _
      · exact (broadcastTo_col_apply _ _ y k).trans (congrFun (shapeCast_self x1 _) _)
    · exact (broadcastTo_1b_ab_apply _ _ y j).trans (shapeCast_a_1a_apply x3 _ 0 j)
  · exact Ideal.ofBits_zero_f32

/-- The result's row is the left operand's row: the whole array's first product. -/
theorem lrow_RA (i : (⟨2, ![50000, 128]⟩ : Shape).Idx)
    (c : Cert.ReferenceIdeal.dot_S50000x128_S128x128_S50000x128_1_0_0_1_n_n.contr.Idx) :
    (Cert.ReferenceIdeal.dot_S50000x128_S128x128_S50000x128_1_0_0_1_n_n.lhsIdx i c 0).val = (i 0).val := by
  unfold DotDims.lhsIdx
  rw [dif_neg (show ¬(0 : Fin _) ∈ Cert.ReferenceIdeal.dot_S50000x128_S128x128_S50000x128_1_0_0_1_n_n.lhsBatch from List.not_mem_nil),
    dif_pos (show (0 : Fin _) ∈ Cert.ReferenceIdeal.dot_S50000x128_S128x128_S50000x128_1_0_0_1_n_n.lhsNonContracting from List.mem_singleton.mpr rfl)]
  rfl

/-- The result's column is the right operand's column: the whole array's first product. -/
theorem rcol_RA (i : (⟨2, ![50000, 128]⟩ : Shape).Idx)
    (c : Cert.ReferenceIdeal.dot_S50000x128_S128x128_S50000x128_1_0_0_1_n_n.contr.Idx) :
    (Cert.ReferenceIdeal.dot_S50000x128_S128x128_S50000x128_1_0_0_1_n_n.rhsIdx i c 1).val = (i 1).val := by
  unfold DotDims.rhsIdx
  rw [dif_neg (show ¬(1 : Fin _) ∈ Cert.ReferenceIdeal.dot_S50000x128_S128x128_S50000x128_1_0_0_1_n_n.rhsBatch from List.not_mem_nil),
    dif_pos (show (1 : Fin _) ∈ Cert.ReferenceIdeal.dot_S50000x128_S128x128_S50000x128_1_0_0_1_n_n.rhsNonContracting from List.mem_singleton.mpr rfl)]
  rfl

/-- The result's row is the left operand's row: the whole array's read-out product. -/
theorem lrow_RB (i : (⟨2, ![50000, 1]⟩ : Shape).Idx)
    (c : Cert.ReferenceIdeal.dot_S50000x128_S128x1_S50000x1_1_0_0_1_n_n.contr.Idx) :
    (Cert.ReferenceIdeal.dot_S50000x128_S128x1_S50000x1_1_0_0_1_n_n.lhsIdx i c 0).val = (i 0).val := by
  unfold DotDims.lhsIdx
  rw [dif_neg (show ¬(0 : Fin _) ∈ Cert.ReferenceIdeal.dot_S50000x128_S128x1_S50000x1_1_0_0_1_n_n.lhsBatch from List.not_mem_nil),
    dif_pos (show (0 : Fin _) ∈ Cert.ReferenceIdeal.dot_S50000x128_S128x1_S50000x1_1_0_0_1_n_n.lhsNonContracting from List.mem_singleton.mpr rfl)]
  rfl

/-- The result's column is the right operand's column: the whole array's read-out product. -/
theorem rcol_RB (i : (⟨2, ![50000, 1]⟩ : Shape).Idx)
    (c : Cert.ReferenceIdeal.dot_S50000x128_S128x1_S50000x1_1_0_0_1_n_n.contr.Idx) :
    (Cert.ReferenceIdeal.dot_S50000x128_S128x1_S50000x1_1_0_0_1_n_n.rhsIdx i c 1).val = (i 1).val := by
  unfold DotDims.rhsIdx
  rw [dif_neg (show ¬(1 : Fin _) ∈ Cert.ReferenceIdeal.dot_S50000x128_S128x1_S50000x1_1_0_0_1_n_n.rhsBatch from List.not_mem_nil),
    dif_pos (show (1 : Fin _) ∈ Cert.ReferenceIdeal.dot_S50000x128_S128x1_S50000x1_1_0_0_1_n_n.rhsNonContracting from List.mem_singleton.mpr rfl)]
  rfl

/-- The second layer's dense part and read-out at node p: Σ_j max(Σ_k (a(p,k)·din(p,0))·W(k,j) + b(j), 0)·fcw(j,u). -/
theorem conv2_apply (a : FVec Ideal Cert.ReferenceIdeal.S50000x128 .f32) (din : FVec Ideal Cert.ReferenceIdeal.S50000x1 .f32)
    (W : FVec Ideal Cert.ReferenceIdeal.S128x128 .f32) (b : FVec Ideal Cert.ReferenceIdeal.S128 .f32)
    (fcw : FVec Ideal Cert.ReferenceIdeal.S128x1 .f32) (p : Fin 50000) (u : Fin 1) :
    Cert.Spec.conv2 a din W b fcw (ix2 p u)
      = ∑ j : Fin 128, max (∑ k : Fin 128, (a (ix2 p k) * din (ix2 p (0 : Fin 1))) * W (ix2 k j) + b (ix1 j)) 0
          * fcw (ix2 j u) := by
  unfold Cert.Spec.conv2
  refine (Cert.LibHostDot.dotGeneral_ix2 Cert.ReferenceIdeal.dot_S50000x128_S128x1_S50000x1_1_0_0_1_n_n rfl rfl rfl rfl
    lrow_RB rcol_RB none _ _ p u).trans ?_
  refine Finset.sum_congr rfl fun j _ => ?_
  refine congrArg (fun z : EReal => z * fcw (ix2 j u)) ?_
  unfold Cert.Spec.dense Cert.Spec.relu
  refine congrArg₂ (fun a b : EReal => max a b) ?_ ?_
  · refine congrArg₂ (fun a b : EReal => a + b) ?_ ?_
    · refine (Cert.LibHostDot.dotGeneral_ix2 Cert.ReferenceIdeal.dot_S50000x128_S128x128_S50000x128_1_0_0_1_n_n rfl rfl rfl rfl
        lrow_RA rcol_RA none _ _ p j).trans ?_
      refine Finset.sum_congr rfl fun k _ => ?_
      refine congrArg (fun z : EReal => z * W (ix2 k j)) ?_
      refine congrArg (fun z : EReal => a (ix2 p k) * z) ?_
      exact Cert.LibBcast.bcastCol_apply din _ p k
    · exact (Cert.LibBcast.bcastRow_apply _ _ p j).trans (Cert.LibBcast.bcastVecRow_apply b _ 0 j)
  · exact (Cert.LibBcast.bcastScalar_apply _ _ _).trans Ideal.ofBits_zero_f32
/-- A block whose rows are rows q of the whole arrays, with the whole weights, bias and read-out column, has at row y
    the whole-array value at node q: both are the same double sum. -/
theorem pay_eq_conv2 (A : FVec Ideal Cert.ReferenceIdeal.S50000x128 .f32) (DIN : FVec Ideal Cert.ReferenceIdeal.S50000x1 .f32)
    (W : FVec Ideal Cert.ReferenceIdeal.S128x128 .f32) (B : FVec Ideal Cert.ReferenceIdeal.S128 .f32)
    (FCW : FVec Ideal Cert.ReferenceIdeal.S128x1 .f32)
    (x0 : FVec Ideal S5000x128 .f32) (x1 : FVec Ideal S5000x1 .f32) (x2 : FVec Ideal S128x128 .f32)
    (x3 : FVec Ideal S128 .f32) (x4 : FVec Ideal S128x1 .f32) (q : Fin 50000) (y : Fin 5000) (u : Fin 1)
    (h0 : ∀ k : Fin 128, x0 (ix2 y k) = A (ix2 q k)) (h1 : x1 (ix2 y (0 : Fin 1)) = DIN (ix2 q (0 : Fin 1)))
    (h2 : ∀ (k j : Fin 128), x2 (ix2 k j) = W (ix2 k j)) (h3 : ∀ j : Fin 128, x3 (ix1 j) = B (ix1 j))
    (h4 : ∀ (j : Fin 128) (v : Fin 1), x4 (ix2 j v) = FCW (ix2 j v)) :
    k2_pay1 (F := Ideal) x0 x1 x2 x3 x4 (ix2 y u) = Cert.Spec.conv2 A DIN W B FCW (ix2 q u) := by
  rw [pay_apply, conv2_apply]
  refine Finset.sum_congr rfl fun j _ => ?_
  rw [h3 j, h4 j u, h1]
  refine congrArg (fun z : EReal => max (z + B (ix1 j)) 0 * FCW (ix2 j u)) ?_
  refine Finset.sum_congr rfl fun k _ => ?_
  rw [h0 k, h2 k j]

/-- Grid point t writes back rows 5000·t … 5000·t + 4999 of the second layer's read-out of the arrays the region finds. -/
theorem block_written (V : (c : Dev nD) → (b : Ref sig .tc) → Buf (Elt Ideal) ((c : Thread nD τ).loc b)) (c : Dev nD)
    (t : Fin cfg2.N) :
    (dat2 (F := Ideal) V c).flushed 5 t
      = ((cfg2.win 5).blk t).view.read (Elt Ideal)
          (Cert.Spec.conv2 (V c main_v24) (V c main_v14) (V c main_arg5) (V c main_arg6) (V c main_arg7)) := by
  show (cfg2.win 5).cut (grid2.coords t) ((dat2 (F := Ideal) V c).after 5 t) = _
  rw [after2_5]
  unfold out2_5
  rw [View.canon_unit_zero zeroOff2]
  simp only [View.ld_unit_zero (S := S5000x128) zeroOff2, View.ld_unit_zero (S := S5000x1) zeroOff2,
    View.ld_unit_zero (S := S128x128) zeroOff2, View.ld_unit_zero (S := S128) zeroOff1, View.ld_unit_zero (S := S128x1) zeroOff2]
  obtain ⟨e00, e01, e10, e11, e20, e21, e30, e40, e41, e50, e51⟩ := block_indices t
  have ht : t.val < 10 := by have := t.isLt; have hN : cfg2.N = 10 := N_2; omega
  refine funext fun (j : S5000x1.Idx) => ?_
  obtain ⟨y, u, rfl⟩ : ∃ (y : Fin 5000) (u : Fin 1), j = ix2 y u := ⟨j 0, j 1, eq_ix2 j⟩
  have hy : y.val < 5000 := y.isLt
  have hu : u.val < 1 := u.isLt
  have he : ((cfg2.win 5).blk t).view.emb (ix2 y u) = ix2 (⟨t.val * 5000 + y.val, by omega⟩ : Fin 50000) u := by
    funext a; apply Fin.ext
    match a with
    | ⟨0, _⟩ => show win2_5.index t (0 : Fin 2) * 5000 + 1 * y.val = t.val * 5000 + y.val; omega
    | ⟨1, _⟩ => show win2_5.index t (1 : Fin 2) * 1 + 1 * u.val = u.val; omega
  show k2_pay1 (F := Ideal) (iblk2 V c 0 t) (iblk2 V c 1 t) (iblk2 V c 2 t) (iblk2 V c 3 t) (iblk2 V c 4 t) (ix2 y u)
    = Cert.Spec.conv2 (V c main_v24) (V c main_v14) (V c main_arg5) (V c main_arg6) (V c main_arg7)
        (((cfg2.win 5).blk t).view.emb (ix2 y u))
  rw [he]
  refine pay_eq_conv2 (V c main_v24) (V c main_v14) (V c main_arg5) (V c main_arg6) (V c main_arg7)
    (iblk2 V c 0 t) (iblk2 V c 1 t) (iblk2 V c 2 t) (iblk2 V c 3 t) (iblk2 V c 4 t) _ y u ?_ ?_ ?_ ?_ ?_
  · intro k
    have hk : k.val < 128 := k.isLt
    show V c main_v24 (((cfg2.win 0).blk t).view.emb (ix2 y k)) = V c main_v24 _
    refine congrArg (V c main_v24) (funext fun a => Fin.ext ?_)
    match a with
    | ⟨0, _⟩ => show win2_0.index t (0 : Fin 2) * 5000 + 1 * y.val = t.val * 5000 + y.val; omega
    | ⟨1, _⟩ => show win2_0.index t (1 : Fin 2) * 128 + 1 * k.val = k.val; omega
  · show V c main_v14 (((cfg2.win 1).blk t).view.emb (ix2 y (0 : Fin 1))) = V c main_v14 _
    refine congrArg (V c main_v14) (funext fun a => Fin.ext ?_)
    match a with
    | ⟨0, _⟩ => show win2_1.index t (0 : Fin 2) * 5000 + 1 * y.val = t.val * 5000 + y.val; omega
    | ⟨1, _⟩ => show win2_1.index t (1 : Fin 2) * 1 + 1 * 0 = 0; omega
  · intro k j
    have hk : k.val < 128 := k.isLt
    have hj : j.val < 128 := j.isLt
    show V c main_arg5 (((cfg2.win 2).blk t).view.emb (ix2 k j)) = V c main_arg5 _
    refine congrArg (V c main_arg5) (funext fun a => Fin.ext ?_)
    match a with
    | ⟨0, _⟩ => show win2_2.index t (0 : Fin 2) * 128 + 1 * k.val = k.val; omega
    | ⟨1, _⟩ => show win2_2.index t (1 : Fin 2) * 128 + 1 * j.val = j.val; omega
  · intro j
    have hj : j.val < 128 := j.isLt
    show V c main_arg6 (((cfg2.win 3).blk t).view.emb (ix1 j)) = V c main_arg6 _
    refine congrArg (V c main_arg6) (funext fun a => Fin.ext ?_)
    match a with
    | ⟨0, _⟩ => show win2_3.index t (0 : Fin 1) * 128 + 1 * j.val = j.val; omega
  · intro j v
    have hj : j.val < 128 := j.isLt
    have hv : v.val < 1 := v.isLt
    show V c main_arg7 (((cfg2.win 4).blk t).view.emb (ix2 j v)) = V c main_arg7 _
    refine congrArg (V c main_arg7) (funext fun a => Fin.ext ?_)
    match a with
    | ⟨0, _⟩ => show win2_4.index t (0 : Fin 2) * 128 + 1 * j.val = j.val; omega
    | ⟨1, _⟩ => show win2_4.index t (1 : Fin 2) * 1 + 1 * v.val = v.val; omega

/-- A node's index is in point t's block of the output column iff each coordinate is in the block's range on its axis. -/
theorem mem_out_block (t : Fin cfg2.N) (i : S50000x1.Idx) :
    i ∈ ((cfg2.win 5).blk t).view.set ↔ ∀ a : Fin 2, win2_5.index t a * S5000x1.size a ≤ (i a).val
      ∧ (i a).val < win2_5.index t a * S5000x1.size a + S5000x1.size a := by
  show i ∈ ((View.whole main_v25).slice (win2_5.rect t)).set ↔ _
  rw [View.set_slice_whole, Rect.mem_set_unit]
  exact Iff.rfl

/-- The ten blocks of 5000 rows tile the 50000 nodes: node n is in the block of point n / 5000, which writes back. -/
theorem blocks_cover_nodes (i : S50000x1.Idx) :
    ∃ t : Fin cfg2.N, (cfg2.win 5).flush t = true ∧ i ∈ ((cfg2.win 5).blk t).view.set := by
  have hi0 : (i 0).val < 50000 := (i 0).isLt
  have hi1 : (i 1).val < 1 := (i 1).isLt
  have hN : cfg2.N = 10 := N_2
  have hlt : (i 0).val / 5000 < cfg2.N := by omega
  obtain ⟨-, -, -, -, -, -, -, -, -, e50, e51⟩ := block_indices ⟨(i 0).val / 5000, hlt⟩
  have e50' : win2_5.index ⟨(i 0).val / 5000, hlt⟩ (0 : Fin 2) = (i 0).val / 5000 := e50
  refine ⟨⟨(i 0).val / 5000, hlt⟩, flush2_5 _, ?_⟩
  rw [mem_out_block]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    omega
  | ⟨1, _⟩ =>
    show win2_5.index ⟨(i 0).val / 5000, hlt⟩ (1 : Fin 2) * 1 ≤ (i 1).val
      ∧ (i 1).val < win2_5.index ⟨(i 0).val / 5000, hlt⟩ (1 : Fin 2) * 1 + 1
    omega

/-- The output column after the third region is the second layer's dense part and read-out of the arrays the region
    finds, at every node. -/
theorem conv2_value (V : (c : Dev nD) → (b : Ref sig .tc) → Buf (Elt Ideal) ((c : Thread nD τ).loc b)) (c : Dev nD) :
    (dat2 (F := Ideal) V c).arrAt 5 cfg2.N
      = Cert.Spec.conv2 (V c main_v24) (V c main_v14) (V c main_arg5) (V c main_arg6) (V c main_arg7) :=
  (dat2 (F := Ideal) V c).arrAt_eq_of_cover 5 _ (fun t _ => block_written V c t) blocks_cover_nodes

end Cert.KernelIdeal.Region2

end
-- ==== Proof.RefOps.lean ====
/-
  The reference program as a straight line of tensor operations.

  The reference's three kinds of outlined function (the clamp from below by one, the row gather with its index
  normalisation and out-of-range fill, and the entrywise maximum with zero) are executed at their call sites, each value
  of a called body in a buffer of its own.  Listed in order that is 110 operations; the program is their sequence, and
  every weakly fair execution runs them to the end, leaving each buffer at the fold of the operations' results over the
  contents at launch.
-/
import proofs.«131643_j41497974014275_1_alg».proof.Proof.Gen.ReferenceIdeal
import Idealize.ShloMosaic.Lib.StableHlo.Run
import Idealize.ShloMosaic.Lib.Pipeline.Regions

noncomputable section

namespace Cert.ReferenceIdeal.HandRun

open Idealize.ShloMosaic Idealize.ShloMosaic.TcCoe Idealize.SL.Sem Idealize.ShloMosaic.StableHlo
open Cert.ReferenceIdeal Cert.ReferenceIdeal.Facts₀

variable [Cert.ReferenceIdeal.Facts]

section General

variable {F : FTy → Type} [FloatOps F]

/-- The program's 110 operations in order, each called function's operations at its call site over that call's buffers. -/
abbrev ops : List (HloOp τ sig (Elt F)) :=
  [
    StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg1 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x00000000#32),
    StableHlo.unary main_cst_1 main_v4 (broadcastInDim S50000 ![] bcast_S_S50000 : (⟨S_, .f32⟩ : BufTy).Contents (Elt F) → (⟨S50000, .f32⟩ : BufTy).Contents (Elt F)),
    StableHlo.unary main_arg2 main_v5 (broadcastInDim S800000x1 ![0] bcast_S800000_S800000x1_0 : (⟨S800000, .i32⟩ : BufTy).Contents (Elt F) → (⟨S800000x1, .i32⟩ : BufTy).Contents (Elt F)),
    StableHlo.ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_2 (constant S_ .f32 0x3F800000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.binary (.of main_call0_v1 : StableHlo.TRef sig ⟨S50000, .f32⟩) (.of main_v3 : StableHlo.TRef sig ⟨S50000, .f32⟩) (.of main_v7 : StableHlo.TRef sig ⟨S50000, .f32⟩) maximumf,
    StableHlo.nullary main_cst_3 (constant S_ .f32 0xBF000000#32),
    StableHlo.unary main_cst_3 main_v8 (broadcastInDim S50000 ![] bcast_S_S50000 : (⟨S_, .f32⟩ : BufTy).Contents (Elt F) → (⟨S50000, .f32⟩ : BufTy).Contents (Elt F)),
    StableHlo.binary main_v7 main_v8 main_v9 (Host.powf : (⟨S50000, .f32⟩ : BufTy).Contents (Elt F) → (⟨S50000, .f32⟩ : BufTy).Contents (Elt F) → (⟨S50000, .f32⟩ : BufTy).Contents (Elt F)),
    StableHlo.nullary main_cst_4 (constant S_ .f32 0x3F800000#32),
    StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S50000, .f32⟩) (broadcastInDim S50000 ![] bcast_S_S50000),
    StableHlo.TRef.binary (.of main_call1_v1 : StableHlo.TRef sig ⟨S50000, .f32⟩) (.of main_v6 : StableHlo.TRef sig ⟨S50000, .f32⟩) (.of main_v10 : StableHlo.TRef sig ⟨S50000, .f32⟩) maximumf,
    StableHlo.nullary main_cst_5 (constant S_ .f32 0xBF000000#32),
    StableHlo.unary main_cst_5 main_v11 (broadcastInDim S50000 ![] bcast_S_S50000 : (⟨S_, .f32⟩ : BufTy).Contents (Elt F) → (⟨S50000, .f32⟩ : BufTy).Contents (Elt F)),
    StableHlo.binary main_v10 main_v11 main_v12 (Host.powf : (⟨S50000, .f32⟩ : BufTy).Contents (Elt F) → (⟨S50000, .f32⟩ : BufTy).Contents (Elt F) → (⟨S50000, .f32⟩ : BufTy).Contents (Elt F)),
    StableHlo.unary main_v9 main_v13 (broadcastInDim S50000x1 ![0] bcast_S50000_S50000x1_0 : (⟨S50000, .f32⟩ : BufTy).Contents (Elt F) → (⟨S50000x1, .f32⟩ : BufTy).Contents (Elt F)),
    StableHlo.unary main_v13 main_v14 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v14 main_v15 (mulf : (⟨S50000x128, .f32⟩ : BufTy).Contents (Elt F) → (⟨S50000x128, .f32⟩ : BufTy).Contents (Elt F) → (⟨S50000x128, .f32⟩ : BufTy).Contents (Elt F)),
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S800000, .i32⟩) (broadcastInDim S800000 ![] bcast_S_S800000),
    StableHlo.TRef.binary (.of main_arg1 : StableHlo.TRef sig ⟨S800000, .i32⟩) (.of main_call2_v0 : StableHlo.TRef sig ⟨S800000, .i32⟩) (.of main_call2_v1 : StableHlo.TRef sig ⟨S800000, .i1⟩) (cmpi .slt),
    StableHlo.TRef.nullary (.of main_call2_c_0 : StableHlo.TRef sig ⟨S_, .i32⟩) (constantI S_ 32 50000#32),
    StableHlo.TRef.unary (.of main_call2_c_0 : StableHlo.TRef sig ⟨S_, .i32⟩) (.of main_call2_v2 : StableHlo.TRef sig ⟨S800000, .i32⟩) (broadcastInDim S800000 ![] bcast_S_S800000),
    StableHlo.TRef.binary (.of main_arg1 : StableHlo.TRef sig ⟨S800000, .i32⟩) (.of main_call2_v2 : StableHlo.TRef sig ⟨S800000, .i32⟩) (.of main_call2_v3 : StableHlo.TRef sig ⟨S800000, .i32⟩) addi,
    StableHlo.TRef.ternary (.of main_call2_v1 : StableHlo.TRef sig ⟨S800000, .i1⟩) (.of main_call2_v3 : StableHlo.TRef sig ⟨S800000, .i32⟩) (.of main_arg1 : StableHlo.TRef sig ⟨S800000, .i32⟩) (.of main_call2_v4 : StableHlo.TRef sig ⟨S800000, .i32⟩) select,
    StableHlo.TRef.unary (.of main_call2_v4 : StableHlo.TRef sig ⟨S800000, .i32⟩) (.of main_call2_v5 : StableHlo.TRef sig ⟨S800000x1, .i32⟩) (broadcastInDim S800000x1 ![0] bcast_S800000_S800000x1_0),
    StableHlo.TRef.nullary (.of main_call2_c_1 : StableHlo.TRef sig ⟨S1, .i32⟩) (constantI S1 32 49999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S800000x1, .i32⟩) (broadcastInDim S800000x1 ![] bcast_S_S800000x1),
    StableHlo.TRef.binary (.of main_call2_v5 : StableHlo.TRef sig ⟨S800000x1, .i32⟩) (.of main_call2_v6 : StableHlo.TRef sig ⟨S800000x1, .i32⟩) (.of main_call2_v7 : StableHlo.TRef sig ⟨S800000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S800000x1, .i32⟩) (broadcastInDim S800000x1 ![0, 1] bcast_S1x1_S800000x1_0_1),
    StableHlo.TRef.binary (.of main_call2_v5 : StableHlo.TRef sig ⟨S800000x1, .i32⟩) (.of main_call2_v9 : StableHlo.TRef sig ⟨S800000x1, .i32⟩) (.of main_call2_v10 : StableHlo.TRef sig ⟨S800000x1, .i1⟩) (cmpi .sle),
    StableHlo.TRef.binary (.of main_call2_v7 : StableHlo.TRef sig ⟨S800000x1, .i1⟩) (.of main_call2_v10 : StableHlo.TRef sig ⟨S800000x1, .i1⟩) (.of main_call2_v11 : StableHlo.TRef sig ⟨S800000x1, .i1⟩) andi,
    StableHlo.TRef.nullary (.of main_call2_c_3 : StableHlo.TRef sig ⟨S_, .i1⟩) (constantI S_ 1 1#1),
    StableHlo.TRef.binary (.of main_call2_v11 : StableHlo.TRef sig ⟨S800000x1, .i1⟩) (.of main_call2_c_3 : StableHlo.TRef sig ⟨S_, .i1⟩) (.of main_call2_v12 : StableHlo.TRef sig ⟨S800000, .i1⟩) (fun x v => Host.reduce IntOp.andi x v reducesTo_S800000x1_S800000_d1 h_S_),
    StableHlo.TRef.binary (.of main_v15 : StableHlo.TRef sig ⟨S50000x128, .f32⟩) (.of main_call2_v5 : StableHlo.TRef sig ⟨S800000x1, .i32⟩) (.of main_call2_v13 : StableHlo.TRef sig ⟨S800000x128, .f32⟩) (fun x i => Host.gather gather_S50000x128_S800000x1_S800000x128_1_0_n_n_0_1_1128 x i),
    StableHlo.TRef.unary (.of main_call2_v12 : StableHlo.TRef sig ⟨S800000, .i1⟩) (.of main_call2_v14 : StableHlo.TRef sig ⟨S800000x128, .i1⟩) (broadcastInDim S800000x128 ![0] bcast_S800000_S800000x128_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S800000x128, .f32⟩) (broadcastInDim S800000x128 ![] bcast_S_S800000x128),
    StableHlo.TRef.ternary (.of main_call2_v14 : StableHlo.TRef sig ⟨S800000x128, .i1⟩) (.of main_call2_v13 : StableHlo.TRef sig ⟨S800000x128, .f32⟩) (.of main_call2_v15 : StableHlo.TRef sig ⟨S800000x128, .f32⟩) (.of main_v16 : StableHlo.TRef sig ⟨S800000x128, .f32⟩) select,
    StableHlo.nullary main_cst_6 (constant S_ .f32 0x00000000#32),
    StableHlo.unary main_cst_6 main_v17 (broadcastInDim S50000x128 ![] bcast_S_S50000x128 : (⟨S_, .f32⟩ : BufTy).Contents (Elt F) → (⟨S50000x128, .f32⟩ : BufTy).Contents (Elt F)),
    StableHlo.unary main_arg2 main_v18 (broadcastInDim S800000x1 ![0] bcast_S800000_S800000x1_0 : (⟨S800000, .i32⟩ : BufTy).Contents (Elt F) → (⟨S800000x1, .i32⟩ : BufTy).Contents (Elt F)),
    StableHlo.ternary main_v17 main_v18 main_v16 main_v19 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v19 main_v21 main_v22 (mulf : (⟨S50000x128, .f32⟩ : BufTy).Contents (Elt F) → (⟨S50000x128, .f32⟩ : BufTy).Contents (Elt F) → (⟨S50000x128, .f32⟩ : BufTy).Contents (Elt F)),
    StableHlo.binary main_v22 main_arg3 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v25 main_v26 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x128, .f32⟩) (broadcastInDim S50000x128 ![] bcast_S_S50000x128),
    StableHlo.TRef.binary (.of main_v26 : StableHlo.TRef sig ⟨S50000x128, .f32⟩) (.of main_call3_v0 : StableHlo.TRef sig ⟨S50000x128, .f32⟩) (.of main_v27 : StableHlo.TRef sig ⟨S50000x128, .f32⟩) maximumf,
    StableHlo.unary main_v9 main_v28 (broadcastInDim S50000x1 ![0] bcast_S50000_S50000x1_0 : (⟨S50000, .f32⟩ : BufTy).Contents (Elt F) → (⟨S50000x1, .f32⟩ : BufTy).Contents (Elt F)),
    StableHlo.unary main_v28 main_v29 (broadcastInDim S50000x128 ![0, 1] bcast_S50000x1_S50000x128_0_1 : (⟨S50000x1, .f32⟩ : BufTy).Contents (Elt F) → (⟨S50000x128, .f32⟩ : BufTy).Contents (Elt F)),
    StableHlo.binary main_v27 main_v29 main_v30 (mulf : (⟨S50000x128, .f32⟩ : BufTy).Contents (Elt F) → (⟨S50000x128, .f32⟩ : BufTy).Contents (Elt F) → (⟨S50000x128, .f32⟩ : BufTy).Contents (Elt F)),
    StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S800000, .i32⟩) (broadcastInDim S800000 ![] bcast_S_S800000),
    StableHlo.TRef.binary (.of main_arg1 : StableHlo.TRef sig ⟨S800000, .i32⟩) (.of main_call4_v0 : StableHlo.TRef sig ⟨S800000, .i32⟩) (.of main_call4_v1 : StableHlo.TRef sig ⟨S800000, .i1⟩) (cmpi .slt),
    StableHlo.TRef.nullary (.of main_call4_c_0 : StableHlo.TRef sig ⟨S_, .i32⟩) (constantI S_ 32 50000#32),
    StableHlo.TRef.unary (.of main_call4_c_0 : StableHlo.TRef sig ⟨S_, .i32⟩) (.of main_call4_v2 : StableHlo.TRef sig ⟨S800000, .i32⟩) (broadcastInDim S800000 ![] bcast_S_S800000),
    StableHlo.TRef.binary (.of main_arg1 : StableHlo.TRef sig ⟨S800000, .i32⟩) (.of main_call4_v2 : StableHlo.TRef sig ⟨S800000, .i32⟩) (.of main_call4_v3 : StableHlo.TRef sig ⟨S800000, .i32⟩) addi,
    StableHlo.TRef.ternary (.of main_call4_v1 : StableHlo.TRef sig ⟨S800000, .i1⟩) (.of main_call4_v3 : StableHlo.TRef sig ⟨S800000, .i32⟩) (.of main_arg1 : StableHlo.TRef sig ⟨S800000, .i32⟩) (.of main_call4_v4 : StableHlo.TRef sig ⟨S800000, .i32⟩) select,
    StableHlo.TRef.unary (.of main_call4_v4 : StableHlo.TRef sig ⟨S800000, .i32⟩) (.of main_call4_v5 : StableHlo.TRef sig ⟨S800000x1, .i32⟩) (broadcastInDim S800000x1 ![0] bcast_S800000_S800000x1_0),
    StableHlo.TRef.nullary (.of main_call4_c_1 : StableHlo.TRef sig ⟨S1, .i32⟩) (constantI S1 32 49999#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S800000x1, .i32⟩) (broadcastInDim S800000x1 ![] bcast_S_S800000x1),
    StableHlo.TRef.binary (.of main_call4_v5 : StableHlo.TRef sig ⟨S800000x1, .i32⟩) (.of main_call4_v6 : StableHlo.TRef sig ⟨S800000x1, .i32⟩) (.of main_call4_v7 : StableHlo.TRef sig ⟨S800000x1, .i1⟩) (cmpi .sge),
    StableHlo.TRef.unary (.of main_call4_c_1 : StableHlo.TRef sig ⟨S1, .i32⟩) (.of main_call4_v8 : StableHlo.TRef sig ⟨S1x1, .i32⟩) (broadcastInDim S1x1 ![1] bcast_S1_S1x1_1),
    StableHlo.TRef.unary (.of main_call4_v8 : StableHlo.TRef sig ⟨S1x1, .i32⟩) (.of main_call4_v9 : StableHlo.TRef sig ⟨S800000x1, .i32⟩) (broadcastInDim S800000x1 ![0, 1] bcast_S1x1_S800000x1_0_1),
    StableHlo.TRef.binary (.of main_call4_v5 : StableHlo.TRef sig ⟨S800000x1, .i32⟩) (.of main_call4_v9 : StableHlo.TRef sig ⟨S800000x1, .i32⟩) (.of main_call4_v10 : StableHlo.TRef sig ⟨S800000x1, .i1⟩) (cmpi .sle),
    StableHlo.TRef.binary (.of main_call4_v7 : StableHlo.TRef sig ⟨S800000x1, .i1⟩) (.of main_call4_v10 : StableHlo.TRef sig ⟨S800000x1, .i1⟩) (.of main_call4_v11 : StableHlo.TRef sig ⟨S800000x1, .i1⟩) andi,
    StableHlo.TRef.nullary (.of main_call4_c_3 : StableHlo.TRef sig ⟨S_, .i1⟩) (constantI S_ 1 1#1),
    StableHlo.TRef.binary (.of main_call4_v11 : StableHlo.TRef sig ⟨S800000x1, .i1⟩) (.of main_call4_c_3 : StableHlo.TRef sig ⟨S_, .i1⟩) (.of main_call4_v12 : StableHlo.TRef sig ⟨S800000, .i1⟩) (fun x v => Host.reduce IntOp.andi x v reducesTo_S800000x1_S800000_d1 h_S_),
    StableHlo.TRef.binary (.of main_v30 : StableHlo.TRef sig ⟨S50000x128, .f32⟩) (.of main_call4_v5 : StableHlo.TRef sig ⟨S800000x1, .i32⟩) (.of main_call4_v13 : StableHlo.TRef sig ⟨S800000x128, .f32⟩) (fun x i => Host.gather gather_S50000x128_S800000x1_S800000x128_1_0_n_n_0_1_1128 x i),
    StableHlo.TRef.unary (.of main_call4_v12 : StableHlo.TRef sig ⟨S800000, .i1⟩) (.of main_call4_v14 : StableHlo.TRef sig ⟨S800000x128, .i1⟩) (broadcastInDim S800000x128 ![0] bcast_S800000_S800000x128_0),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v15 : StableHlo.TRef sig ⟨S800000x128, .f32⟩) (broadcastInDim S800000x128 ![] bcast_S_S800000x128),
    StableHlo.TRef.ternary (.of main_call4_v14 : StableHlo.TRef sig ⟨S800000x128, .i1⟩) (.of main_call4_v13 : StableHlo.TRef sig ⟨S800000x128, .f32⟩) (.of main_call4_v15 : StableHlo.TRef sig ⟨S800000x128, .f32⟩) (.of main_v31 : StableHlo.TRef sig ⟨S800000x128, .f32⟩) select,
    StableHlo.nullary main_cst_7 (constant S_ .f32 0x00000000#32),
    StableHlo.unary main_cst_7 main_v32 (broadcastInDim S50000x128 ![] bcast_S_S50000x128 : (⟨S_, .f32⟩ : BufTy).Contents (Elt F) → (⟨S50000x128, .f32⟩ : BufTy).Contents (Elt F)),
    StableHlo.unary main_arg2 main_v33 (broadcastInDim S800000x1 ![0] bcast_S800000_S800000x1_0 : (⟨S800000, .i32⟩ : BufTy).Contents (Elt F) → (⟨S800000x1, .i32⟩ : BufTy).Contents (Elt F)),
    StableHlo.ternary main_v32 main_v33 main_v31 main_v34 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v35 (broadcastInDim S50000x1 ![0] bcast_S50000_S50000x1_0 : (⟨S50000, .f32⟩ : BufTy).Contents (Elt F) → (⟨S50000x1, .f32⟩ : BufTy).Contents (Elt F)),
    StableHlo.unary main_v35 main_v36 (broadcastInDim S50000x128 ![0, 1] bcast_S50000x1_S50000x128_0_1 : (⟨S50000x1, .f32⟩ : BufTy).Contents (Elt F) → (⟨S50000x128, .f32⟩ : BufTy).Contents (Elt F)),
    StableHlo.binary main_v34 main_v36 main_v37 (mulf : (⟨S50000x128, .f32⟩ : BufTy).Contents (Elt F) → (⟨S50000x128, .f32⟩ : BufTy).Contents (Elt F) → (⟨S50000x128, .f32⟩ : BufTy).Contents (Elt F)),
    StableHlo.binary main_v37 main_arg5 main_v38 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v40 main_v41 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x128, .f32⟩) (broadcastInDim S50000x128 ![] bcast_S_S50000x128),
    StableHlo.TRef.binary (.of main_v41 : StableHlo.TRef sig ⟨S50000x128, .f32⟩) (.of main_call5_v0 : StableHlo.TRef sig ⟨S50000x128, .f32⟩) (.of main_v42 : StableHlo.TRef sig ⟨S50000x128, .f32⟩) maximumf,
    StableHlo.binary main_v42 main_arg7 main_v43 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg8 main_v44 (broadcastInDim S1x1 ![1] bcast_S1_S1x1_1 : (⟨S1, .f32⟩ : BufTy).Contents (Elt F) → (⟨S1x1, .f32⟩ : BufTy).Contents (Elt F)),
    StableHlo.unary main_v44 main_v45 (broadcastInDim S50000x1 ![0, 1] bcast_S1x1_S50000x1_0_1 : (⟨S1x1, .f32⟩ : BufTy).Contents (Elt F) → (⟨S50000x1, .f32⟩ : BufTy).Contents (Elt F)),
    StableHlo.binary main_v43 main_v45 main_v46 (addf : (⟨S50000x1, .f32⟩ : BufTy).Contents (Elt F) → (⟨S50000x1, .f32⟩ : BufTy).Contents (Elt F) → (⟨S50000x1, .f32⟩ : BufTy).Contents (Elt F)),
    StableHlo.unary main_arg9 main_v47 (broadcastInDim S50000x1 ![] bcast_S_S50000x1 : (⟨S_, .f32⟩ : BufTy).Contents (Elt F) → (⟨S50000x1, .f32⟩ : BufTy).Contents (Elt F)),
    StableHlo.binary main_v46 main_v47 main_v48 (subf : (⟨S50000x1, .f32⟩ : BufTy).Contents (Elt F) → (⟨S50000x1, .f32⟩ : BufTy).Contents (Elt F) → (⟨S50000x1, .f32⟩ : BufTy).Contents (Elt F)) ]

/-- The program is that straight line: the called functions' bodies unfolded at their calls; both sides compute to the same
    chain of steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches tensor-value buffers of the core only. -/
theorem ops_sub : (ops : List (HloOp τ sig (Elt F))).Forall fun op => op.bufs ⊆ tcRefs τ sig :=
  ⟨
    nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    unary_bufs_sub .., binary_bufs_sub .., nullary_bufs_sub .., unary_bufs_sub .., binary_bufs_sub .., nullary_bufs_sub ..,
    unary_bufs_sub .., unary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., nullary_bufs_sub .., unary_bufs_sub .., unary_bufs_sub .., ternary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., unary_bufs_sub .., unary_bufs_sub .., ternary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    unary_bufs_sub .., binary_bufs_sub ..⟩

/-- Every weakly fair execution terminates with each buffer at the fold of the operations over the launch contents. -/
theorem run_fold (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end General

end Cert.ReferenceIdeal.HandRun

end
-- ==== Proof.LibAfter.lean ====
/-
  The buffer contents after two lines of host operations run one after the other are the contents after the second
  line, started from the contents after the first.  Imports only the library.
-/
import Idealize.ShloMosaic.Lib.StableHlo.Run

noncomputable section

namespace Cert.LibAfter

open Idealize.ShloMosaic Idealize.ShloMosaic.StableHlo

variable {τ : Topo} {sig : RefSig} {Val : EltTy → Type}

/-- `after (l₁ ++ l₂) V = after l₂ (after l₁ V)`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfter

end
-- ==== Proof.RefRun.lean ====
/-
  The reference program's run, read back as the specification.

  The program's 110 operations are cut into five consecutive stretches: the two inverse-square-root degree vectors;
  the source-side scaling of the features and the first gather; the first scatter-add and dense layer with the scaling
  for the next gather; the second gather; the second scatter-add and dense layer, the read-out column, its bias and the
  threshold.  Over arbitrary buffer contents each stretch leaves in its result buffer the corresponding stage of the
  specification applied to the contents it reads, and writes none of the buffers a later stretch reads.  Composed, the
  result buffer after all 110 operations holds the specification's network of the ten argument arrays; no operation
  writes an argument.  With the run of the straight line this is the statement about every weakly fair execution.
-/
import proofs.«131643_j41497974014275_1_alg».proof.Proof.RefOps
import proofs.«131643_j41497974014275_1_alg».proof.Proof.Spec
import proofs.«131643_j41497974014275_1_alg».proof.Proof.LibAfter

noncomputable section

namespace Cert.ReferenceIdeal.HandRun

open Idealize.ShloMosaic Idealize.ShloMosaic.TcCoe Idealize.SL.Sem Idealize.ShloMosaic.StableHlo
open Cert.ReferenceIdeal Cert.ReferenceIdeal.Facts₀

variable [Cert.ReferenceIdeal.Facts]

/-- A typed reference built from a literal buffer at the buffer's own type moves contents by the identity. -/
theorem toBuf_lit {Val : EltTy → Type} (r : Ref sig .tc) (h2) (h3) (v : r.ty.Contents Val) :
    (TRef.of (sig := sig) (T := r.ty) r rfl h2 h3).toBuf v = v := rfl
theorem ofBuf_lit {Val : EltTy → Type} (r : Ref sig .tc) (h2) (h3) (v : r.ty.Contents Val) :
    (TRef.of (sig := sig) (T := r.ty) r rfl h2 h3).ofBuf v = v := rfl

section Pieces

variable {F : FTy → Type} [FloatOps F]

/-- Operations 1–24: the degree vectors. -/
abbrev ops1 : List (HloOp τ sig (Elt F)) :=
  [
    StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg1 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x00000000#32),
    StableHlo.unary main_cst_1 main_v4 (broadcastInDim S50000 ![] bcast_S_S50000 : (⟨S_, .f32⟩ : BufTy).Contents (Elt F) → (⟨S50000, .f32⟩ : BufTy).Contents (Elt F)),
    StableHlo.unary main_arg2 main_v5 (broadcastInDim S800000x1 ![0] bcast_S800000_S800000x1_0 : (⟨S800000, .i32⟩ : BufTy).Contents (Elt F) → (⟨S800000x1, .i32⟩ : BufTy).Contents (Elt F)),
    StableHlo.ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_2 (constant S_ .f32 0x3F800000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.binary (.of main_call0_v1 : StableHlo.TRef sig ⟨S50000, .f32⟩) (.of main_v3 : StableHlo.TRef sig ⟨S50000, .f32⟩) (.of main_v7 : StableHlo.TRef sig ⟨S50000, .f32⟩) maximumf,
    StableHlo.nullary main_cst_3 (constant S_ .f32 0xBF000000#32),
    StableHlo.unary main_cst_3 main_v8 (broadcastInDim S50000 ![] bcast_S_S50000 : (⟨S_, .f32⟩ : BufTy).Contents (Elt F) → (⟨S50000, .f32⟩ : BufTy).Contents (Elt F)),
    StableHlo.binary main_v7 main_v8 main_v9 (Host.powf : (⟨S50000, .f32⟩ : BufTy).Contents (Elt F) → (⟨S50000, .f32⟩ : BufTy).Contents (Elt F) → (⟨S50000, .f32⟩ : BufTy).Contents (Elt F)),
    StableHlo.nullary main_cst_4 (constant S_ .f32 0x3F800000#32),
    StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S50000, .f32⟩) (broadcastInDim S50000 ![] bcast_S_S50000),
    StableHlo.TRef.binary (.of main_call1_v1 : StableHlo.TRef sig ⟨S50000, .f32⟩) (.of main_v6 : StableHlo.TRef sig ⟨S50000, .f32⟩) (.of main_v10 : StableHlo.TRef sig ⟨S50000, .f32⟩) maximumf,
    StableHlo.nullary main_cst_5 (constant S_ .f32 0xBF000000#32),
    StableHlo.unary main_cst_5 main_v11 (broadcastInDim S50000 ![] bcast_S_S50000 : (⟨S_, .f32⟩ : BufTy).Contents (Elt F) → (⟨S50000, .f32⟩ : BufTy).Contents (Elt F)),
    StableHlo.binary main_v10 main_v11 main_v12 (Host.powf : (⟨S50000, .f32⟩ : BufTy).Contents (Elt F) → (⟨S50000, .f32⟩ : BufTy).Contents (Elt F) → (⟨S50000, .f32⟩ : BufTy).Contents (Elt F)) ]

/-- Operations 25–50: the source-side scaling and the first gather. -/
abbrev ops2 : List (HloOp τ sig (Elt F)) :=
  [
    StableHlo.unary main_v9 main_v13 (broadcastInDim S50000x1 ![0] bcast_S50000_S50000x1_0 : (⟨S50000, .f32⟩ : BufTy).Contents (Elt F) → (⟨S50000x1, .f32⟩ : BufTy).Contents (Elt F)),
    StableHlo.unary main_v13 main_v14 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v14 main_v15 (mulf : (⟨S50000x128, .f32⟩ : BufTy).Contents (Elt F) → (⟨S50000x128, .f32⟩ : BufTy).Contents (Elt F) → (⟨S50000x128, .f32⟩ : BufTy).Contents (Elt F)),
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S800000, .i32⟩) (broadcastInDim S800000 ![] bcast_S_S800000),
    StableHlo.TRef.binary (.of main_arg1 : StableHlo.TRef sig ⟨S800000, .i32⟩) (.of main_call2_v0 : StableHlo.TRef sig ⟨S800000, .i32⟩) (.of main_call2_v1 : StableHlo.TRef sig ⟨S800000, .i1⟩) (cmpi .slt),
    StableHlo.TRef.nullary (.of main_call2_c_0 : StableHlo.TRef sig ⟨S_, .i32⟩) (constantI S_ 32 50000#32),
    StableHlo.TRef.unary (.of main_call2_c_0 : StableHlo.TRef sig ⟨S_, .i32⟩) (.of main_call2_v2 : StableHlo.TRef sig ⟨S800000, .i32⟩) (broadcastInDim S800000 ![] bcast_S_S800000),
    StableHlo.TRef.binary (.of main_arg1 : StableHlo.TRef sig ⟨S800000, .i32⟩) (.of main_call2_v2 : StableHlo.TRef sig ⟨S800000, .i32⟩) (.of main_call2_v3 : StableHlo.TRef sig ⟨S800000, .i32⟩) addi,
    StableHlo.TRef.ternary (.of main_call2_v1 : StableHlo.TRef sig ⟨S800000, .i1⟩) (.of main_call2_v3 : StableHlo.TRef sig ⟨S800000, .i32⟩) (.of main_arg1 : StableHlo.TRef sig ⟨S800000, .i32⟩) (.of main_call2_v4 : StableHlo.TRef sig ⟨S800000, .i32⟩) select,
    StableHlo.TRef.unary (.of main_call2_v4 : StableHlo.TRef sig ⟨S800000, .i32⟩) (.of main_call2_v5 : StableHlo.TRef sig ⟨S800000x1, .i32⟩) (broadcastInDim S800000x1 ![0] bcast_S800000_S800000x1_0),
    StableHlo.TRef.nullary (.of main_call2_c_1 : StableHlo.TRef sig ⟨S1, .i32⟩) (constantI S1 32 49999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S800000x1, .i32⟩) (broadcastInDim S800000x1 ![] bcast_S_S800000x1),
    StableHlo.TRef.binary (.of main_call2_v5 : StableHlo.TRef sig ⟨S800000x1, .i32⟩) (.of main_call2_v6 : StableHlo.TRef sig ⟨S800000x1, .i32⟩) (.of main_call2_v7 : StableHlo.TRef sig ⟨S800000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S800000x1, .i32⟩) (broadcastInDim S800000x1 ![0, 1] bcast_S1x1_S800000x1_0_1),
    StableHlo.TRef.binary (.of main_call2_v5 : StableHlo.TRef sig ⟨S800000x1, .i32⟩) (.of main_call2_v9 : StableHlo.TRef sig ⟨S800000x1, .i32⟩) (.of main_call2_v10 : StableHlo.TRef sig ⟨S800000x1, .i1⟩) (cmpi .sle),
    StableHlo.TRef.binary (.of main_call2_v7 : StableHlo.TRef sig ⟨S800000x1, .i1⟩) (.of main_call2_v10 : StableHlo.TRef sig ⟨S800000x1, .i1⟩) (.of main_call2_v11 : StableHlo.TRef sig ⟨S800000x1, .i1⟩) andi,
    StableHlo.TRef.nullary (.of main_call2_c_3 : StableHlo.TRef sig ⟨S_, .i1⟩) (constantI S_ 1 1#1),
    StableHlo.TRef.binary (.of main_call2_v11 : StableHlo.TRef sig ⟨S800000x1, .i1⟩) (.of main_call2_c_3 : StableHlo.TRef sig ⟨S_, .i1⟩) (.of main_call2_v12 : StableHlo.TRef sig ⟨S800000, .i1⟩) (fun x v => Host.reduce IntOp.andi x v reducesTo_S800000x1_S800000_d1 h_S_),
    StableHlo.TRef.binary (.of main_v15 : StableHlo.TRef sig ⟨S50000x128, .f32⟩) (.of main_call2_v5 : StableHlo.TRef sig ⟨S800000x1, .i32⟩) (.of main_call2_v13 : StableHlo.TRef sig ⟨S800000x128, .f32⟩) (fun x i => Host.gather gather_S50000x128_S800000x1_S800000x128_1_0_n_n_0_1_1128 x i),
    StableHlo.TRef.unary (.of main_call2_v12 : StableHlo.TRef sig ⟨S800000, .i1⟩) (.of main_call2_v14 : StableHlo.TRef sig ⟨S800000x128, .i1⟩) (broadcastInDim S800000x128 ![0] bcast_S800000_S800000x128_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S800000x128, .f32⟩) (broadcastInDim S800000x128 ![] bcast_S_S800000x128),
    StableHlo.TRef.ternary (.of main_call2_v14 : StableHlo.TRef sig ⟨S800000x128, .i1⟩) (.of main_call2_v13 : StableHlo.TRef sig ⟨S800000x128, .f32⟩) (.of main_call2_v15 : StableHlo.TRef sig ⟨S800000x128, .f32⟩) (.of main_v16 : StableHlo.TRef sig ⟨S800000x128, .f32⟩) select ]

/-- Operations 51–67: the first scatter-add and dense layer. -/
abbrev ops3 : List (HloOp τ sig (Elt F)) :=
  [
    StableHlo.nullary main_cst_6 (constant S_ .f32 0x00000000#32),
    StableHlo.unary main_cst_6 main_v17 (broadcastInDim S50000x128 ![] bcast_S_S50000x128 : (⟨S_, .f32⟩ : BufTy).Contents (Elt F) → (⟨S50000x128, .f32⟩ : BufTy).Contents (Elt F)),
    StableHlo.unary main_arg2 main_v18 (broadcastInDim S800000x1 ![0] bcast_S800000_S800000x1_0 : (⟨S800000, .i32⟩ : BufTy).Contents (Elt F) → (⟨S800000x1, .i32⟩ : BufTy).Contents (Elt F)),
    StableHlo.ternary main_v17 main_v18 main_v16 main_v19 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v19 main_v21 main_v22 (mulf : (⟨S50000x128, .f32⟩ : BufTy).Contents (Elt F) → (⟨S50000x128, .f32⟩ : BufTy).Contents (Elt F) → (⟨S50000x128, .f32⟩ : BufTy).Contents (Elt F)),
    StableHlo.binary main_v22 main_arg3 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v25 main_v26 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x128, .f32⟩) (broadcastInDim S50000x128 ![] bcast_S_S50000x128),
    StableHlo.TRef.binary (.of main_v26 : StableHlo.TRef sig ⟨S50000x128, .f32⟩) (.of main_call3_v0 : StableHlo.TRef sig ⟨S50000x128, .f32⟩) (.of main_v27 : StableHlo.TRef sig ⟨S50000x128, .f32⟩) maximumf,
    StableHlo.unary main_v9 main_v28 (broadcastInDim S50000x1 ![0] bcast_S50000_S50000x1_0 : (⟨S50000, .f32⟩ : BufTy).Contents (Elt F) → (⟨S50000x1, .f32⟩ : BufTy).Contents (Elt F)),
    StableHlo.unary main_v28 main_v29 (broadcastInDim S50000x128 ![0, 1] bcast_S50000x1_S50000x128_0_1 : (⟨S50000x1, .f32⟩ : BufTy).Contents (Elt F) → (⟨S50000x128, .f32⟩ : BufTy).Contents (Elt F)),
    StableHlo.binary main_v27 main_v29 main_v30 (mulf : (⟨S50000x128, .f32⟩ : BufTy).Contents (Elt F) → (⟨S50000x128, .f32⟩ : BufTy).Contents (Elt F) → (⟨S50000x128, .f32⟩ : BufTy).Contents (Elt F)) ]

/-- Operations 68–90: the second gather. -/
abbrev ops4 : List (HloOp τ sig (Elt F)) :=
  [
    StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S800000, .i32⟩) (broadcastInDim S800000 ![] bcast_S_S800000),
    StableHlo.TRef.binary (.of main_arg1 : StableHlo.TRef sig ⟨S800000, .i32⟩) (.of main_call4_v0 : StableHlo.TRef sig ⟨S800000, .i32⟩) (.of main_call4_v1 : StableHlo.TRef sig ⟨S800000, .i1⟩) (cmpi .slt),
    StableHlo.TRef.nullary (.of main_call4_c_0 : StableHlo.TRef sig ⟨S_, .i32⟩) (constantI S_ 32 50000#32),
    StableHlo.TRef.unary (.of main_call4_c_0 : StableHlo.TRef sig ⟨S_, .i32⟩) (.of main_call4_v2 : StableHlo.TRef sig ⟨S800000, .i32⟩) (broadcastInDim S800000 ![] bcast_S_S800000),
    StableHlo.TRef.binary (.of main_arg1 : StableHlo.TRef sig ⟨S800000, .i32⟩) (.of main_call4_v2 : StableHlo.TRef sig ⟨S800000, .i32⟩) (.of main_call4_v3 : StableHlo.TRef sig ⟨S800000, .i32⟩) addi,
    StableHlo.TRef.ternary (.of main_call4_v1 : StableHlo.TRef sig ⟨S800000, .i1⟩) (.of main_call4_v3 : StableHlo.TRef sig ⟨S800000, .i32⟩) (.of main_arg1 : StableHlo.TRef sig ⟨S800000, .i32⟩) (.of main_call4_v4 : StableHlo.TRef sig ⟨S800000, .i32⟩) select,
    StableHlo.TRef.unary (.of main_call4_v4 : StableHlo.TRef sig ⟨S800000, .i32⟩) (.of main_call4_v5 : StableHlo.TRef sig ⟨S800000x1, .i32⟩) (broadcastInDim S800000x1 ![0] bcast_S800000_S800000x1_0),
    StableHlo.TRef.nullary (.of main_call4_c_1 : StableHlo.TRef sig ⟨S1, .i32⟩) (constantI S1 32 49999#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S800000x1, .i32⟩) (broadcastInDim S800000x1 ![] bcast_S_S800000x1),
    StableHlo.TRef.binary (.of main_call4_v5 : StableHlo.TRef sig ⟨S800000x1, .i32⟩) (.of main_call4_v6 : StableHlo.TRef sig ⟨S800000x1, .i32⟩) (.of main_call4_v7 : StableHlo.TRef sig ⟨S800000x1, .i1⟩) (cmpi .sge),
    StableHlo.TRef.unary (.of main_call4_c_1 : StableHlo.TRef sig ⟨S1, .i32⟩) (.of main_call4_v8 : StableHlo.TRef sig ⟨S1x1, .i32⟩) (broadcastInDim S1x1 ![1] bcast_S1_S1x1_1),
    StableHlo.TRef.unary (.of main_call4_v8 : StableHlo.TRef sig ⟨S1x1, .i32⟩) (.of main_call4_v9 : StableHlo.TRef sig ⟨S800000x1, .i32⟩) (broadcastInDim S800000x1 ![0, 1] bcast_S1x1_S800000x1_0_1),
    StableHlo.TRef.binary (.of main_call4_v5 : StableHlo.TRef sig ⟨S800000x1, .i32⟩) (.of main_call4_v9 : StableHlo.TRef sig ⟨S800000x1, .i32⟩) (.of main_call4_v10 : StableHlo.TRef sig ⟨S800000x1, .i1⟩) (cmpi .sle),
    StableHlo.TRef.binary (.of main_call4_v7 : StableHlo.TRef sig ⟨S800000x1, .i1⟩) (.of main_call4_v10 : StableHlo.TRef sig ⟨S800000x1, .i1⟩) (.of main_call4_v11 : StableHlo.TRef sig ⟨S800000x1, .i1⟩) andi,
    StableHlo.TRef.nullary (.of main_call4_c_3 : StableHlo.TRef sig ⟨S_, .i1⟩) (constantI S_ 1 1#1),
    StableHlo.TRef.binary (.of main_call4_v11 : StableHlo.TRef sig ⟨S800000x1, .i1⟩) (.of main_call4_c_3 : StableHlo.TRef sig ⟨S_, .i1⟩) (.of main_call4_v12 : StableHlo.TRef sig ⟨S800000, .i1⟩) (fun x v => Host.reduce IntOp.andi x v reducesTo_S800000x1_S800000_d1 h_S_),
    StableHlo.TRef.binary (.of main_v30 : StableHlo.TRef sig ⟨S50000x128, .f32⟩) (.of main_call4_v5 : StableHlo.TRef sig ⟨S800000x1, .i32⟩) (.of main_call4_v13 : StableHlo.TRef sig ⟨S800000x128, .f32⟩) (fun x i => Host.gather gather_S50000x128_S800000x1_S800000x128_1_0_n_n_0_1_1128 x i),
    StableHlo.TRef.unary (.of main_call4_v12 : StableHlo.TRef sig ⟨S800000, .i1⟩) (.of main_call4_v14 : StableHlo.TRef sig ⟨S800000x128, .i1⟩) (broadcastInDim S800000x128 ![0] bcast_S800000_S800000x128_0),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v15 : StableHlo.TRef sig ⟨S800000x128, .f32⟩) (broadcastInDim S800000x128 ![] bcast_S_S800000x128),
    StableHlo.TRef.ternary (.of main_call4_v14 : StableHlo.TRef sig ⟨S800000x128, .i1⟩) (.of main_call4_v13 : StableHlo.TRef sig ⟨S800000x128, .f32⟩) (.of main_call4_v15 : StableHlo.TRef sig ⟨S800000x128, .f32⟩) (.of main_v31 : StableHlo.TRef sig ⟨S800000x128, .f32⟩) select ]

/-- Operations 91–110: the second scatter-add and dense layer, the read-out and the threshold. -/
abbrev ops5 : List (HloOp τ sig (Elt F)) :=
  [
    StableHlo.nullary main_cst_7 (constant S_ .f32 0x00000000#32),
    StableHlo.unary main_cst_7 main_v32 (broadcastInDim S50000x128 ![] bcast_S_S50000x128 : (⟨S_, .f32⟩ : BufTy).Contents (Elt F) → (⟨S50000x128, .f32⟩ : BufTy).Contents (Elt F)),
    StableHlo.unary main_arg2 main_v33 (broadcastInDim S800000x1 ![0] bcast_S800000_S800000x1_0 : (⟨S800000, .i32⟩ : BufTy).Contents (Elt F) → (⟨S800000x1, .i32⟩ : BufTy).Contents (Elt F)),
    StableHlo.ternary main_v32 main_v33 main_v31 main_v34 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v35 (broadcastInDim S50000x1 ![0] bcast_S50000_S50000x1_0 : (⟨S50000, .f32⟩ : BufTy).Contents (Elt F) → (⟨S50000x1, .f32⟩ : BufTy).Contents (Elt F)),
    StableHlo.unary main_v35 main_v36 (broadcastInDim S50000x128 ![0, 1] bcast_S50000x1_S50000x128_0_1 : (⟨S50000x1, .f32⟩ : BufTy).Contents (Elt F) → (⟨S50000x128, .f32⟩ : BufTy).Contents (Elt F)),
    StableHlo.binary main_v34 main_v36 main_v37 (mulf : (⟨S50000x128, .f32⟩ : BufTy).Contents (Elt F) → (⟨S50000x128, .f32⟩ : BufTy).Contents (Elt F) → (⟨S50000x128, .f32⟩ : BufTy).Contents (Elt F)),
    StableHlo.binary main_v37 main_arg5 main_v38 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v40 main_v41 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x128, .f32⟩) (broadcastInDim S50000x128 ![] bcast_S_S50000x128),
    StableHlo.TRef.binary (.of main_v41 : StableHlo.TRef sig ⟨S50000x128, .f32⟩) (.of main_call5_v0 : StableHlo.TRef sig ⟨S50000x128, .f32⟩) (.of main_v42 : StableHlo.TRef sig ⟨S50000x128, .f32⟩) maximumf,
    StableHlo.binary main_v42 main_arg7 main_v43 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg8 main_v44 (broadcastInDim S1x1 ![1] bcast_S1_S1x1_1 : (⟨S1, .f32⟩ : BufTy).Contents (Elt F) → (⟨S1x1, .f32⟩ : BufTy).Contents (Elt F)),
    StableHlo.unary main_v44 main_v45 (broadcastInDim S50000x1 ![0, 1] bcast_S1x1_S50000x1_0_1 : (⟨S1x1, .f32⟩ : BufTy).Contents (Elt F) → (⟨S50000x1, .f32⟩ : BufTy).Contents (Elt F)),
    StableHlo.binary main_v43 main_v45 main_v46 (addf : (⟨S50000x1, .f32⟩ : BufTy).Contents (Elt F) → (⟨S50000x1, .f32⟩ : BufTy).Contents (Elt F) → (⟨S50000x1, .f32⟩ : BufTy).Contents (Elt F)),
    StableHlo.unary main_arg9 main_v47 (broadcastInDim S50000x1 ![] bcast_S_S50000x1 : (⟨S_, .f32⟩ : BufTy).Contents (Elt F) → (⟨S50000x1, .f32⟩ : BufTy).Contents (Elt F)),
    StableHlo.binary main_v46 main_v47 main_v48 (subf : (⟨S50000x1, .f32⟩ : BufTy).Contents (Elt F) → (⟨S50000x1, .f32⟩ : BufTy).Contents (Elt F) → (⟨S50000x1, .f32⟩ : BufTy).Contents (Elt F)) ]

/-- The program's operations are the five stretches one after the other. -/
theorem ops_split : (ops : List (HloOp τ sig (Elt F))) = ops1 ++ (ops2 ++ (ops3 ++ (ops4 ++ ops5))) := rfl

set_option maxRecDepth 8192 in
set_option maxHeartbeats 400000 in
/-- They write none of the buffers read later. -/
theorem keep1 (W : Valuation τ sig (Elt F)) :
    after (ops1 (F := F)) W (main_arg0 : DevRef τ sig) = W (main_arg0 : DevRef τ sig) ∧
    after (ops1 (F := F)) W (main_arg1 : DevRef τ sig) = W (main_arg1 : DevRef τ sig) ∧
    after (ops1 (F := F)) W (main_arg2 : DevRef τ sig) = W (main_arg2 : DevRef τ sig) ∧
    after (ops1 (F := F)) W (main_arg3 : DevRef τ sig) = W (main_arg3 : DevRef τ sig) ∧
    after (ops1 (F := F)) W (main_arg4 : DevRef τ sig) = W (main_arg4 : DevRef τ sig) ∧
    after (ops1 (F := F)) W (main_arg5 : DevRef τ sig) = W (main_arg5 : DevRef τ sig) ∧
    after (ops1 (F := F)) W (main_arg6 : DevRef τ sig) = W (main_arg6 : DevRef τ sig) ∧
    after (ops1 (F := F)) W (main_arg7 : DevRef τ sig) = W (main_arg7 : DevRef τ sig) ∧
    after (ops1 (F := F)) W (main_arg8 : DevRef τ sig) = W (main_arg8 : DevRef τ sig) ∧
    after (ops1 (F := F)) W (main_arg9 : DevRef τ sig) = W (main_arg9 : DevRef τ sig) := by
  refine ⟨?_, ?_, ?_, ?_, ?_, ?_, ?_, ?_, ?_, ?_⟩ <;> after_results_simp

set_option maxRecDepth 8192 in
set_option maxHeartbeats 400000 in
/-- They write none of the buffers read later. -/
theorem keep2 (W : Valuation τ sig (Elt F)) :
    after (ops2 (F := F)) W (main_v9 : DevRef τ sig) = W (main_v9 : DevRef τ sig) ∧
    after (ops2 (F := F)) W (main_v12 : DevRef τ sig) = W (main_v12 : DevRef τ sig) ∧
    after (ops2 (F := F)) W (main_arg1 : DevRef τ sig) = W (main_arg1 : DevRef τ sig) ∧
    after (ops2 (F := F)) W (main_arg2 : DevRef τ sig) = W (main_arg2 : DevRef τ sig) ∧
    after (ops2 (F := F)) W (main_arg3 : DevRef τ sig) = W (main_arg3 : DevRef τ sig) ∧
    after (ops2 (F := F)) W (main_arg4 : DevRef τ sig) = W (main_arg4 : DevRef τ sig) ∧
    after (ops2 (F := F)) W (main_arg5 : DevRef τ sig) = W (main_arg5 : DevRef τ sig) ∧
    after (ops2 (F := F)) W (main_arg6 : DevRef τ sig) = W (main_arg6 : DevRef τ sig) ∧
    after (ops2 (F := F)) W (main_arg7 : DevRef τ sig) = W (main_arg7 : DevRef τ sig) ∧
    after (ops2 (F := F)) W (main_arg8 : DevRef τ sig) = W (main_arg8 : DevRef τ sig) ∧
    after (ops2 (F := F)) W (main_arg9 : DevRef τ sig) = W (main_arg9 : DevRef τ sig) := by
  refine ⟨?_, ?_, ?_, ?_, ?_, ?_, ?_, ?_, ?_, ?_, ?_⟩ <;> after_results_simp

set_option maxRecDepth 8192 in
set_option maxHeartbeats 400000 in
/-- They write none of the buffers read later. -/
theorem keep3 (W : Valuation τ sig (Elt F)) :
    after (ops3 (F := F)) W (main_v12 : DevRef τ sig) = W (main_v12 : DevRef τ sig) ∧
    after (ops3 (F := F)) W (main_arg1 : DevRef τ sig) = W (main_arg1 : DevRef τ sig) ∧
    after (ops3 (F := F)) W (main_arg2 : DevRef τ sig) = W (main_arg2 : DevRef τ sig) ∧
    after (ops3 (F := F)) W (main_arg5 : DevRef τ sig) = W (main_arg5 : DevRef τ sig) ∧
    after (ops3 (F := F)) W (main_arg6 : DevRef τ sig) = W (main_arg6 : DevRef τ sig) ∧
    after (ops3 (F := F)) W (main_arg7 : DevRef τ sig) = W (main_arg7 : DevRef τ sig) ∧
    after (ops3 (F := F)) W (main_arg8 : DevRef τ sig) = W (main_arg8 : DevRef τ sig) ∧
    after (ops3 (F := F)) W (main_arg9 : DevRef τ sig) = W (main_arg9 : DevRef τ sig) := by
  refine ⟨?_, ?_, ?_, ?_, ?_, ?_, ?_, ?_⟩ <;> after_results_simp

set_option maxRecDepth 8192 in
set_option maxHeartbeats 400000 in
/-- They write none of the buffers read later. -/
theorem keep4 (W : Valuation τ sig (Elt F)) :
    after (ops4 (F := F)) W (main_v12 : DevRef τ sig) = W (main_v12 : DevRef τ sig) ∧
    after (ops4 (F := F)) W (main_arg2 : DevRef τ sig) = W (main_arg2 : DevRef τ sig) ∧
    after (ops4 (F := F)) W (main_arg5 : DevRef τ sig) = W (main_arg5 : DevRef τ sig) ∧
    after (ops4 (F := F)) W (main_arg6 : DevRef τ sig) = W (main_arg6 : DevRef τ sig) ∧
    after (ops4 (F := F)) W (main_arg7 : DevRef τ sig) = W (main_arg7 : DevRef τ sig) ∧
    after (ops4 (F := F)) W (main_arg8 : DevRef τ sig) = W (main_arg8 : DevRef τ sig) ∧
    after (ops4 (F := F)) W (main_arg9 : DevRef τ sig) = W (main_arg9 : DevRef τ sig) := by
  refine ⟨?_, ?_, ?_, ?_, ?_, ?_, ?_⟩ <;> after_results_simp

set_option maxRecDepth 8192 in
set_option maxHeartbeats 400000 in
theorem arg0_eq (V : Valuation τ sig (Elt F)) :
    after (ops (F := F)) V (main_arg0 : DevRef τ sig) = V (main_arg0 : DevRef τ sig) := by
  after_results_simp

set_option maxRecDepth 8192 in
set_option maxHeartbeats 400000 in
theorem arg1_eq (V : Valuation τ sig (Elt F)) :
    after (ops (F := F)) V (main_arg1 : DevRef τ sig) = V (main_arg1 : DevRef τ sig) := by
  after_results_simp

set_option maxRecDepth 8192 in
set_option maxHeartbeats 400000 in
theorem arg2_eq (V : Valuation τ sig (Elt F)) :
    after (ops (F := F)) V (main_arg2 : DevRef τ sig) = V (main_arg2 : DevRef τ sig) := by
  after_results_simp

set_option maxRecDepth 8192 in
set_option maxHeartbeats 400000 in
theorem arg3_eq (V : Valuation τ sig (Elt F)) :
    after (ops (F := F)) V (main_arg3 : DevRef τ sig) = V (main_arg3 : DevRef τ sig) := by
  after_results_simp

set_option maxRecDepth 8192 in
set_option maxHeartbeats 400000 in
theorem arg4_eq (V : Valuation τ sig (Elt F)) :
    after (ops (F := F)) V (main_arg4 : DevRef τ sig) = V (main_arg4 : DevRef τ sig) := by
  after_results_simp

set_option maxRecDepth 8192 in
set_option maxHeartbeats 400000 in
theorem arg5_eq (V : Valuation τ sig (Elt F)) :
    after (ops (F := F)) V (main_arg5 : DevRef τ sig) = V (main_arg5 : DevRef τ sig) := by
  after_results_simp

set_option maxRecDepth 8192 in
set_option maxHeartbeats 400000 in
theorem arg6_eq (V : Valuation τ sig (Elt F)) :
    after (ops (F := F)) V (main_arg6 : DevRef τ sig) = V (main_arg6 : DevRef τ sig) := by
  after_results_simp

set_option maxRecDepth 8192 in
set_option maxHeartbeats 400000 in
theorem arg7_eq (V : Valuation τ sig (Elt F)) :
    after (ops (F := F)) V (main_arg7 : DevRef τ sig) = V (main_arg7 : DevRef τ sig) := by
  after_results_simp

set_option maxRecDepth 8192 in
set_option maxHeartbeats 400000 in
theorem arg8_eq (V : Valuation τ sig (Elt F)) :
    after (ops (F := F)) V (main_arg8 : DevRef τ sig) = V (main_arg8 : DevRef τ sig) := by
  after_results_simp

set_option maxRecDepth 8192 in
set_option maxHeartbeats 400000 in
theorem arg9_eq (V : Valuation τ sig (Elt F)) :
    after (ops (F := F)) V (main_arg9 : DevRef τ sig) = V (main_arg9 : DevRef τ sig) := by
  after_results_simp

end Pieces

attribute [local irreducible] Host.reduce Host.gather Host.scatterAdd Host.powf in
set_option maxRecDepth 8192 in
set_option maxHeartbeats 400000 in
/-- The first 24 operations leave the two inverse-square-root degree vectors: of the edges' source words and of their target words. -/
theorem stage1 (W : Valuation τ sig (Elt Ideal)) :
    after (ops1 (F := Ideal)) W (main_v9 : DevRef τ sig)
      = Cert.Spec.invSqrtDeg (W (main_arg1 : DevRef τ sig)) ∧
    after (ops1 (F := Ideal)) W (main_v12 : DevRef τ sig)
      = Cert.Spec.invSqrtDeg (W (main_arg2 : DevRef τ sig)) := by
  refine ⟨?_, ?_⟩ <;>
  (after_results_simp
   simp only [toBuf_lit main_cst_2, ofBuf_lit main_cst_2, toBuf_lit main_call0_v0, ofBuf_lit main_call0_v0,
      toBuf_lit main_call0_v1, ofBuf_lit main_call0_v1, toBuf_lit main_v3, ofBuf_lit main_v3,
      toBuf_lit main_v7, ofBuf_lit main_v7, toBuf_lit main_cst_4, ofBuf_lit main_cst_4,
      toBuf_lit main_call1_v0, ofBuf_lit main_call1_v0, toBuf_lit main_call1_v1, ofBuf_lit main_call1_v1,
      toBuf_lit main_v6, ofBuf_lit main_v6, toBuf_lit main_v10, ofBuf_lit main_v10]
   simp only [Cert.Spec.invSqrtDeg]
   first | done | rfl)

attribute [local irreducible] Host.reduce Host.gather Host.scatterAdd Host.powf in
set_option maxRecDepth 8192 in
set_option maxHeartbeats 400000 in
/-- The next 26: the features scaled by the source-side degree column, and their rows gathered at the edges' source words. -/
theorem stage2 (W : Valuation τ sig (Elt Ideal)) :
    after (ops2 (F := Ideal)) W (main_v16 : DevRef τ sig)
      = Cert.Spec.take (Cert.Spec.scale (W (main_arg0 : DevRef τ sig)) (Cert.Spec.col (W (main_v9 : DevRef τ sig)))) (W (main_arg1 : DevRef τ sig)) := by
  (after_results_simp
   simp only [toBuf_lit main_call2_c, ofBuf_lit main_call2_c, toBuf_lit main_call2_v0, ofBuf_lit main_call2_v0,
      toBuf_lit main_arg1, ofBuf_lit main_arg1, toBuf_lit main_call2_v1, ofBuf_lit main_call2_v1,
      toBuf_lit main_call2_c_0, ofBuf_lit main_call2_c_0, toBuf_lit main_call2_v2, ofBuf_lit main_call2_v2,
      toBuf_lit main_call2_v3, ofBuf_lit main_call2_v3, toBuf_lit main_call2_v4, ofBuf_lit main_call2_v4,
      toBuf_lit main_call2_v5, ofBuf_lit main_call2_v5, toBuf_lit main_call2_c_1, ofBuf_lit main_call2_c_1,
      toBuf_lit main_call2_c_2, ofBuf_lit main_call2_c_2, toBuf_lit main_call2_v6, ofBuf_lit main_call2_v6,
      toBuf_lit main_call2_v7, ofBuf_lit main_call2_v7, toBuf_lit main_call2_v8, ofBuf_lit main_call2_v8,
      toBuf_lit main_call2_v9, ofBuf_lit main_call2_v9, toBuf_lit main_call2_v10, ofBuf_lit main_call2_v10,
      toBuf_lit main_call2_v11, ofBuf_lit main_call2_v11, toBuf_lit main_call2_c_3, ofBuf_lit main_call2_c_3,
      toBuf_lit main_call2_v12, ofBuf_lit main_call2_v12, toBuf_lit main_v15, ofBuf_lit main_v15,
      toBuf_lit main_call2_v13, ofBuf_lit main_call2_v13, toBuf_lit main_call2_v14, ofBuf_lit main_call2_v14,
      toBuf_lit main_call2_cst, ofBuf_lit main_call2_cst, toBuf_lit main_call2_v15, ofBuf_lit main_call2_v15,
      toBuf_lit main_v16, ofBuf_lit main_v16]
   simp only [Cert.Spec.take, Cert.Spec.scale, Cert.Spec.col, Cert.Spec.wide, Cert.Spec.wrapped]
   first | done | rfl)

attribute [local irreducible] Host.reduce Host.gather Host.scatterAdd Host.powf in
set_option maxRecDepth 8192 in
set_option maxHeartbeats 400000 in
/-- The next 17: the gathered rows summed into their target nodes, the first dense layer, and the scaling for the second gather. -/
theorem stage3 (W : Valuation τ sig (Elt Ideal)) :
    after (ops3 (F := Ideal)) W (main_v30 : DevRef τ sig)
      = Cert.Spec.conv1 (Cert.Spec.agg (W (main_v16 : DevRef τ sig)) (W (main_arg2 : DevRef τ sig))) (Cert.Spec.col (W (main_v12 : DevRef τ sig))) (Cert.Spec.col (W (main_v9 : DevRef τ sig))) (W (main_arg3 : DevRef τ sig)) (W (main_arg4 : DevRef τ sig)) := by
  (after_results_simp
   simp only [toBuf_lit main_call3_cst, ofBuf_lit main_call3_cst, toBuf_lit main_call3_v0, ofBuf_lit main_call3_v0,
      toBuf_lit main_v26, ofBuf_lit main_v26, toBuf_lit main_v27, ofBuf_lit main_v27]
   simp only [Cert.Spec.conv1, Cert.Spec.dense, Cert.Spec.relu, Cert.Spec.agg, Cert.Spec.col, Cert.Spec.wide]
   first | done | rfl)

attribute [local irreducible] Host.reduce Host.gather Host.scatterAdd Host.powf in
set_option maxRecDepth 8192 in
set_option maxHeartbeats 400000 in
/-- The next 23: the second gather. -/
theorem stage4 (W : Valuation τ sig (Elt Ideal)) :
    after (ops4 (F := Ideal)) W (main_v31 : DevRef τ sig)
      = Cert.Spec.take (W (main_v30 : DevRef τ sig)) (W (main_arg1 : DevRef τ sig)) := by
  (after_results_simp
   simp only [toBuf_lit main_call4_c, ofBuf_lit main_call4_c, toBuf_lit main_call4_v0, ofBuf_lit main_call4_v0,
      toBuf_lit main_arg1, ofBuf_lit main_arg1, toBuf_lit main_call4_v1, ofBuf_lit main_call4_v1,
      toBuf_lit main_call4_c_0, ofBuf_lit main_call4_c_0, toBuf_lit main_call4_v2, ofBuf_lit main_call4_v2,
      toBuf_lit main_call4_v3, ofBuf_lit main_call4_v3, toBuf_lit main_call4_v4, ofBuf_lit main_call4_v4,
      toBuf_lit main_call4_v5, ofBuf_lit main_call4_v5, toBuf_lit main_call4_c_1, ofBuf_lit main_call4_c_1,
      toBuf_lit main_call4_c_2, ofBuf_lit main_call4_c_2, toBuf_lit main_call4_v6, ofBuf_lit main_call4_v6,
      toBuf_lit main_call4_v7, ofBuf_lit main_call4_v7, toBuf_lit main_call4_v8, ofBuf_lit main_call4_v8,
      toBuf_lit main_call4_v9, ofBuf_lit main_call4_v9, toBuf_lit main_call4_v10, ofBuf_lit main_call4_v10,
      toBuf_lit main_call4_v11, ofBuf_lit main_call4_v11, toBuf_lit main_call4_c_3, ofBuf_lit main_call4_c_3,
      toBuf_lit main_call4_v12, ofBuf_lit main_call4_v12, toBuf_lit main_v30, ofBuf_lit main_v30,
      toBuf_lit main_call4_v13, ofBuf_lit main_call4_v13, toBuf_lit main_call4_v14, ofBuf_lit main_call4_v14,
      toBuf_lit main_call4_cst, ofBuf_lit main_call4_cst, toBuf_lit main_call4_v15, ofBuf_lit main_call4_v15,
      toBuf_lit main_v31, ofBuf_lit main_v31]
   simp only [Cert.Spec.take, Cert.Spec.wrapped]
   first | done | rfl)

attribute [local irreducible] Host.reduce Host.gather Host.scatterAdd Host.powf in
set_option maxRecDepth 8192 in
set_option maxHeartbeats 400000 in
/-- The last 20: the second sum into target nodes, the second dense layer, the read-out column, its bias and the threshold. -/
theorem stage5 (W : Valuation τ sig (Elt Ideal)) :
    after (ops5 (F := Ideal)) W (main_v48 : DevRef τ sig)
      = Cert.Spec.tail (Cert.Spec.conv2 (Cert.Spec.agg (W (main_v31 : DevRef τ sig)) (W (main_arg2 : DevRef τ sig))) (Cert.Spec.col (W (main_v12 : DevRef τ sig))) (W (main_arg5 : DevRef τ sig)) (W (main_arg6 : DevRef τ sig)) (W (main_arg7 : DevRef τ sig))) (W (main_arg8 : DevRef τ sig)) (W (main_arg9 : DevRef τ sig)) := by
  (after_results_simp
   simp only [toBuf_lit main_call5_cst, ofBuf_lit main_call5_cst, toBuf_lit main_call5_v0, ofBuf_lit main_call5_v0,
      toBuf_lit main_v41, ofBuf_lit main_v41, toBuf_lit main_v42, ofBuf_lit main_v42]
   simp only [Cert.Spec.tail, Cert.Spec.conv2, Cert.Spec.dense, Cert.Spec.relu, Cert.Spec.agg, Cert.Spec.col, Cert.Spec.wide]
   first | done | rfl)

set_option maxHeartbeats 400000 in
/-- The five stretches composed: what the result buffer holds after all 110 operations is the specification's network
    of the ten argument arrays. -/
theorem out_eq (V : Valuation τ sig (Elt Ideal)) :
    after (ops (F := Ideal)) V (main_v48 : DevRef τ sig)
      = Cert.Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [ops_split, Cert.LibAfter.after_append, Cert.LibAfter.after_append, Cert.LibAfter.after_append,
    Cert.LibAfter.after_append]
  obtain ⟨s1a, s1b⟩ := stage1 V
  obtain ⟨k1_a0, k1_a1, k1_a2, k1_a3, k1_a4, k1_a5, k1_a6, k1_a7, k1_a8, k1_a9⟩ := keep1 (F := Ideal) V
  generalize after (ops1 (F := Ideal)) V = W1 at *
  have s2 := stage2 W1
  obtain ⟨k2_v9, k2_v12, k2_a1, k2_a2, k2_a3, k2_a4, k2_a5, k2_a6, k2_a7, k2_a8, k2_a9⟩ := keep2 (F := Ideal) W1
  generalize after (ops2 (F := Ideal)) W1 = W2 at *
  have s3 := stage3 W2
  obtain ⟨k3_v12, k3_a1, k3_a2, k3_a5, k3_a6, k3_a7, k3_a8, k3_a9⟩ := keep3 (F := Ideal) W2
  generalize after (ops3 (F := Ideal)) W2 = W3 at *
  have s4 := stage4 W3
  obtain ⟨k4_v12, k4_a2, k4_a5, k4_a6, k4_a7, k4_a8, k4_a9⟩ := keep4 (F := Ideal) W3
  generalize after (ops4 (F := Ideal)) W3 = W4 at *
  rw [stage5 W4]
  rw [s4, k4_v12, k4_a2, k4_a5, k4_a6, k4_a7, k4_a8, k4_a9]
  rw [s3, k3_v12, k3_a1, k3_a2, k3_a5, k3_a6, k3_a7, k3_a8, k3_a9]
  rw [s2, k2_v9, k2_v12, k2_a1, k2_a2, k2_a3, k2_a4, k2_a5, k2_a6, k2_a7, k2_a8, k2_a9]
  rw [s1a, s1b, k1_a0, k1_a1, k1_a2, k1_a3, k1_a4, k1_a5, k1_a6, k1_a7, k1_a8, k1_a9]
  rfl

/-- On every device, from any memory with zero counters: every weakly fair execution of the reference terminates with
    the result buffer at the specification's network of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v48)
        = Cert.Spec.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun _ h c =>
      ⟨(h c main_v48).trans (out_eq (launchContents m c)),
       (h c main_arg0).trans (arg0_eq (launchContents m c)),
       (h c main_arg1).trans (arg1_eq (launchContents m c)),
       (h c main_arg2).trans (arg2_eq (launchContents m c)),
       (h c main_arg3).trans (arg3_eq (launchContents m c)),
       (h c main_arg4).trans (arg4_eq (launchContents m c)),
       (h c main_arg5).trans (arg5_eq (launchContents m c)),
       (h c main_arg6).trans (arg6_eq (launchContents m c)),
       (h c main_arg7).trans (arg7_eq (launchContents m c)),
       (h c main_arg8).trans (arg8_eq (launchContents m c)),
       (h c main_arg9).trans (arg9_eq (launchContents m c))⟩)
    (run_fold (F := Ideal) m ρ)

end Cert.ReferenceIdeal.HandRun

end
-- ==== Proof.lean ====
/-
  The certificate's proof.

  Both programs compute a two-layer graph convolution with symmetric degree normalisation and a linear read-out
  (Proof/Spec.lean states it as whole-array functions on the extended reals). The reference does so with host
  operations only; the kernel program computes the three dense stages — the source-side scaling of the features, the
  first layer's  relu((a·din) W1 + b1)·dout,  and the second layer's  relu((a·din) W2 + b2) fc_w  — in three
  grid-tiled regions of ten blocks of 5000 nodes, and the degree vectors, the gathers and the scatter-adds with the
  same host operations as the reference. No algebraic law is needed: block by block, each region's output is the
  same expression the reference's stage evaluates (a matrix product into a zero accumulator is the host's
  contraction, a change of float format is the identity at the ideal values), so the two results are one function
  of the arguments and the precondition is never opened.

  - the frames of the two kernel programs are the generated run of their segments; the reference's frame is its run;
  - the idealization rewrote nothing, so there is nothing to preserve;
  - the two results: the kernel program's run names its result buffer (Proof/KRun.lean), that buffer is read back
    through the run's boundaries (Proof/KFold.lean) over the three regions' values (Proof/Region0–2.lean), and the
    reference's run ends at the same function (Proof/RefRun.lean).
-/
import proofs.«131643_j41497974014275_1_alg».proof.Defs
import proofs.«131643_j41497974014275_1_alg».proof.Proof.Gen.Kernel
import proofs.«131643_j41497974014275_1_alg».proof.Proof.Gen.Kernel.Skeleton
import proofs.«131643_j41497974014275_1_alg».proof.Proof.Gen.Kernel.Launch
import proofs.«131643_j41497974014275_1_alg».proof.Proof.Gen.Kernel.Points
import proofs.«131643_j41497974014275_1_alg».proof.Proof.Gen.Kernel.Frame
import proofs.«131643_j41497974014275_1_alg».proof.Proof.Gen.KernelIdeal
import proofs.«131643_j41497974014275_1_alg».proof.Proof.Gen.KernelIdeal.Skeleton
import proofs.«131643_j41497974014275_1_alg».proof.Proof.Gen.KernelIdeal.Launch
import proofs.«131643_j41497974014275_1_alg».proof.Proof.Gen.KernelIdeal.Points
import proofs.«131643_j41497974014275_1_alg».proof.Proof.Gen.KernelIdeal.Frame
import proofs.«131643_j41497974014275_1_alg».proof.Proof.Gen.ReferenceIdeal
import proofs.«131643_j41497974014275_1_alg».proof.Proof.Gen.Pre_finite_inputs
import proofs.«131643_j41497974014275_1_alg».proof.Proof.KRun
import proofs.«131643_j41497974014275_1_alg».proof.Proof.KFold
import proofs.«131643_j41497974014275_1_alg».proof.Proof.Region0
import proofs.«131643_j41497974014275_1_alg».proof.Proof.Region1
import proofs.«131643_j41497974014275_1_alg».proof.Proof.Region2
import proofs.«131643_j41497974014275_1_alg».proof.Proof.RefRun
import Idealize.ShloMosaic.Adequacy
import Idealize.ShloMosaic.Init

noncomputable section

namespace Cert.Proof

open Idealize.ShloMosaic Idealize.SL.Sem

/-- The reference's frame: its run with the result dropped. -/
theorem frame_ref : Cert.frame_ReferenceIdeal := fun m ρ _ =>
  (θ_run Cert.ReferenceIdeal.defs _ _).mono (fun _ h c => (h c).2) (Cert.ReferenceIdeal.HandRun.run m ρ)

/-- From memories agreeing on the arguments both programs end with the network's output of the arguments. -/
theorem algebraic : Cert.algebraic_KernelIdeal_ReferenceIdeal := by
  intro m ρ m' ρ' _ hagree
  refine ⟨fun c => Cert.Spec.out
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Fold.result_eq m ρ c Cert.KernelIdeal.Region0.scale_value
          Cert.KernelIdeal.Region1.conv1_value Cert.KernelIdeal.Region2.conv2_value), (h c).2⟩)
      (Cert.KernelIdeal.NamedRun.run_named (F := Ideal) m ρ)
  · refine (θ_run Cert.ReferenceIdeal.defs _ _).mono (fun _ h c => ⟨(h c).1.trans ?_, (h c).2⟩)
      (Cert.ReferenceIdeal.HandRun.run m' ρ')
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
